-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x2 : Shape := ⟨2, ![256, 2]⟩
abbrev S2 : Shape := ⟨1, ![2]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg7 : FVec F S256 .f32) (main_arg13 : FVec F S256 .f32) (main_arg15 : FVec F S2 .f32) (main_v63 : IVec S_ 1) (main_v67 : IVec S_ 1) : IVec S_ 1 :=
  let main_v68 : IVec S_ 1 := andi main_v63 main_v67
  let main_v69 : FVec F S2 .f32 := Host.absf main_arg15
  let main_cst_26 : FVec F S_ .f32 := constant S_ .f32 0x7F800000#32
  let main_v70 : FVec F S2 .f32 := broadcastInDim S2 ![] bcast_S_S2 main_cst_26
  let main_v71 : IVec S2 1 := cmpf .olt main_v69 main_v70
  let main_c_27 : IVec S_ 1 := constantI S_ 1 1#1
  let main_v72 : IVec S_ 1 := (fun x v => Host.reduce IntOp.andi x v reducesTo_S2_S_d0 h_S_) main_v71 main_c_27
  let main_v73 : IVec S_ 1 := andi main_v68 main_v72
  let main_cst_28 : FVec F S_ .f32 := constant S_ .f32 0x00000000#32
  let main_v74 : FVec F S256 .f32 := broadcastInDim S256 ![] bcast_S_S256 main_cst_28
  let main_v75 : IVec S256 1 := cmpf .oge main_arg7 main_v74
  let main_c_29 : IVec S_ 1 := constantI S_ 1 1#1
  let main_v76 : IVec S_ 1 := (fun x v => Host.reduce IntOp.andi x v reducesTo_S256_S_d0 h_S_) main_v75 main_c_29
  let main_v77 : IVec S_ 1 := andi main_v73 main_v76
  let main_cst_30 : FVec F S_ .f32 := constant S_ .f32 0x00000000#32
  let main_v78 : FVec F S256 .f32 := broadcastInDim S256 ![] bcast_S_S256 main_cst_30
  let main_v79 : IVec S256 1 := cmpf .oge main_arg13 main_v78
  let main_c_31 : IVec S_ 1 := constantI S_ 1 1#1
  let main_v80 : IVec S_ 1 := (fun x v => Host.reduce IntOp.andi x v reducesTo_S256_S_d0 h_S_) main_v79 main_c_31
  let main_v81 : IVec S_ 1 := andi main_v77 main_v80
  main_v81

def fn_part3 {F : FTy → Type} [FloatOps F] (main_arg7 : FVec F S256 .f32) (main_arg12 : FVec F S256 .f32) (main_arg13 : FVec F S256 .f32) (main_arg14 : FVec F S256x2 .f32) (main_arg15 : FVec F S2 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x2 .f32 := Host.absf main_arg14
  let main_cst_24 : FVec F S_ .f32 := constant S_ .f32 0x7F800000#32
  let main_v65 : FVec F S256x2 .f32 := broadcastInDim S256x2 ![] bcast_S_S256x2 main_cst_24
  let main_v66 : IVec S256x2 1 := cmpf .olt main_v64 main_v65
  let main_c_25 : IVec S_ 1 := constantI S_ 1 1#1
  let main_v67 : IVec S_ 1 := (fun x v => Host.reduce IntOp.andi x v reducesTo_S256x2_S_d0_1 h_S_) main_v66 main_c_25
  fn_part4 (F := F) main_arg7 main_arg13 main_arg15 main_v63 main_v67

def fn_part2 {F : FTy → Type} [FloatOps F] (main_arg7 : FVec F S256 .f32) (main_arg8 : FVec F S256x256 .f32) (main_arg9 : FVec F S256 .f32) (main_arg10 : FVec F S256 .f32) (main_arg11 : FVec F S256 .f32) (main_arg12 : FVec F S256 .f32) (main_arg13 : FVec F S256 .f32) (main_arg14 : FVec F S256x2 .f32) (main_arg15 : FVec F S2 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg7 main_arg12 main_arg13 main_arg14 main_arg15 main_v48 main_v49 main_v50

def fn_part1 {F : FTy → Type} [FloatOps F] (main_arg5 : FVec F S256 .f32) (main_arg6 : FVec F S256 .f32) (main_arg7 : FVec F S256 .f32) (main_arg8 : FVec F S256x256 .f32) (main_arg9 : FVec F S256 .f32) (main_arg10 : FVec F S256 .f32) (main_arg11 : FVec F S256 .f32) (main_arg12 : FVec F S256 .f32) (main_arg13 : FVec F S256 .f32) (main_arg14 : FVec F S256x2 .f32) (main_arg15 : FVec F S2 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S50000x256 .f32) (main_arg1 : IVec S2x800000 32) (main_arg2 : FVec F S256x256 .f32) (main_arg3 : FVec F S256 .f32) (main_arg4 : FVec F S256 .f32) (main_arg5 : FVec F S256 .f32) (main_arg6 : FVec F S256 .f32) (main_arg7 : FVec F S256 .f32) (main_arg8 : FVec F S256x256 .f32) (main_arg9 : FVec F S256 .f32) (main_arg10 : FVec F S256 .f32) (main_arg11 : FVec F S256 .f32) (main_arg12 : FVec F S256 .f32) (main_arg13 : FVec F S256 .f32) (main_arg14 : FVec F S256x2 .f32) (main_arg15 : FVec F S2 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x2 : Shape := ⟨2, ![256, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S1x256 : Shape := ⟨2, ![1, 256]⟩
abbrev S5000x256 : Shape := ⟨2, ![5000, 256]⟩
abbrev S1x2 : Shape := ⟨2, ![1, 2]⟩
abbrev S50000x2 : Shape := ⟨2, ![50000, 2]⟩
abbrev S5000x2 : Shape := ⟨2, ![5000, 2]⟩

abbrev nBuf : Space → Nat
  | .hbm => 71
  | .vmem => 18
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256x2, .f32⟩
  | .hbm, ⟨15, _⟩ => ⟨S2, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .f32⟩
  | .hbm, ⟨21, _⟩ => ⟨S256, .f32⟩
  | .hbm, ⟨22, _⟩ => ⟨S256, .f32⟩
  | .hbm, ⟨23, _⟩ => ⟨S256, .f32⟩
  | .hbm, ⟨24, _⟩ => ⟨S256, .f32⟩
  | .hbm, ⟨25, _⟩ => ⟨S256, .f32⟩
  | .hbm, ⟨26, _⟩ => ⟨S256, .f32⟩
  | .hbm, ⟨27, _⟩ => ⟨S_, .f32⟩
  | .hbm, ⟨28, _⟩ => ⟨S256, .f32⟩
  | .hbm, ⟨29, _⟩ => ⟨S256, .f32⟩
  | .hbm, ⟨30, _⟩ => ⟨S256, .f32⟩
  | .hbm, ⟨31, _⟩ => ⟨S256, .f32⟩
  | .hbm, ⟨32, _⟩ => ⟨S256, .f32⟩
  | .hbm, ⟨33, _⟩ => ⟨S256, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x256, .f32⟩
  | .hbm, ⟨43, _⟩ => ⟨S_, .f32⟩
  | .hbm, ⟨44, _⟩ => ⟨S50000x256, .f32⟩
  | .hbm, ⟨45, _⟩ => ⟨S800000x1, .i32⟩
  | .hbm, ⟨46, _⟩ => ⟨S50000x256, .f32⟩
  | .hbm, ⟨47, _⟩ => ⟨S50000x256, .f32⟩
  | .hbm, ⟨48, _⟩ => ⟨S1x256, .f32⟩
  | .hbm, ⟨49, _⟩ => ⟨S1x256, .f32⟩
  | .hbm, ⟨50, _⟩ => ⟨S1x256, .f32⟩
  | .hbm, ⟨51, _⟩ => ⟨S50000x256, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x256, .f32⟩
  | .hbm, ⟨61, _⟩ => ⟨S_, .f32⟩
  | .hbm, ⟨62, _⟩ => ⟨S50000x256, .f32⟩
  | .hbm, ⟨63, _⟩ => ⟨S800000x1, .i32⟩
  | .hbm, ⟨64, _⟩ => ⟨S50000x256, .f32⟩
  | .hbm, ⟨65, _⟩ => ⟨S50000x256, .f32⟩
  | .hbm, ⟨66, _⟩ => ⟨S1x256, .f32⟩
  | .hbm, ⟨67, _⟩ => ⟨S1x256, .f32⟩
  | .hbm, ⟨68, _⟩ => ⟨S1x256, .f32⟩
  | .hbm, ⟨69, _⟩ => ⟨S1x2, .f32⟩
  | .hbm, ⟨70, _⟩ => ⟨S50000x2, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S5000x256, .f32⟩
  | .local _ .vmem, ⟨7, _⟩ => ⟨S5000x256, .f32⟩
  | .local _ .vmem, ⟨8, _⟩ => ⟨S5000x256, .f32⟩
  | .local _ .vmem, ⟨9, _⟩ => ⟨S5000x256, .f32⟩
  | .local _ .vmem, ⟨10, _⟩ => ⟨S256x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S256x2, .f32⟩
  | .local _ .vmem, ⟨15, _⟩ => ⟨S1x2, .f32⟩
  | .local _ .vmem, ⟨16, _⟩ => ⟨S5000x2, .f32⟩
  | .local _ .vmem, ⟨17, _⟩ => ⟨S5000x2, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_2 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_3 : Ref sig .tc := ⟨.hbm, 52, rfl⟩
abbrev main_v31 : Ref sig .tc := ⟨.hbm, 53, rfl⟩
abbrev main_v32 : Ref sig .tc := ⟨.hbm, 54, rfl⟩
abbrev main_c_4 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_5 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x2 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S256 : S_.BroadcastsInDim S256 (![] : Fin 0 → Fin S256.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  shapeCasts_S256_S1x256 : S256.ShapeCasts S1x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  shapeCasts_S2_S1x2 : S2.ShapeCasts S1x2
  inb_S256x2_S256x2_0_0 : ∀ a, (![0, 0] : Fin 2 → Nat) a + S256x2.size a ≤ S256x2.size a
  h_S256x2 : 0 < S256x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x256_S5000x256_1_0_0_1_n_n_wf : DotDims.WF S5000x256 S256x256 S5000x256 [1] [0] [0] [1] [] []
  dot_S5000x256_S256x2_S5000x2_1_0_0_1_n_n_wf : DotDims.WF S5000x256 S256x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x256.size a ≤ S50000x256.size a
  hwx0_5 : ∀ i : grid0.Coords, EltTy.bits .f32 = 32 ∨ (Rect.block (s := S50000x256) S5000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x2.size a ≤ S256x2.size a
  hwx1_5 : ∀ i : grid1.Coords, EltTy.bits .f32 = 32 ∨ (Rect.block (s := S256x2) S256x2.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x2.size a ≤ S1x2.size a
  hwx1_6 : ∀ i : grid1.Coords, EltTy.bits .f32 = 32 ∨ (Rect.block (s := S1x2) S1x2.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x2.size a ≤ S50000x2.size a
  hwx1_7 : ∀ i : grid1.Coords, EltTy.bits .f32 = 32 ∨ (Rect.block (s := S50000x2) S5000x2.size (cc1_transform_7 i) (hinb1_7 i)).WholeWords (EltTy.packing .f32)

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x256_S256x2_S5000x2_1_0_0_1_n_n : DotDims S5000x256 S256x2 S5000x2 where
  lhsContracting := [1]
  rhsContracting := [0]
  lhsNonContracting := [0]
  rhsNonContracting := [1]
  lhsBatch := []
  rhsBatch := []
  wf := dot_S5000x256_S256x2_S5000x2_1_0_0_1_n_n_wf

abbrev win0_0 : Pipeline.Window sig grid0 :=
  Pipeline.Window.ofSpec (Memref.whole main_v26) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S5000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg14) S256x2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S1x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v46) S5000x2.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x2 : Shape := ⟨2, ![256, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S1x256 : Shape := ⟨2, ![1, 256]⟩
abbrev S50000x2 : Shape := ⟨2, ![50000, 2]⟩
abbrev S1x2 : Shape := ⟨2, ![1, 2]⟩

abbrev nBuf : Space → Nat
  | .hbm => 98
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256x2, .f32⟩
  | .hbm, ⟨15, _⟩ => ⟨S2, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x256, .f32⟩
  | .hbm, ⟨29, _⟩ => ⟨S_, .f32⟩
  | .hbm, ⟨30, _⟩ => ⟨S50000x256, .f32⟩
  | .hbm, ⟨31, _⟩ => ⟨S800000x1, .i32⟩
  | .hbm, ⟨32, _⟩ => ⟨S50000x256, .f32⟩
  | .hbm, ⟨33, _⟩ => ⟨S50000x256, .f32⟩
  | .hbm, ⟨34, _⟩ => ⟨S50000x256, .f32⟩
  | .hbm, ⟨35, _⟩ => ⟨S1x256, .f32⟩
  | .hbm, ⟨36, _⟩ => ⟨S50000x256, .f32⟩
  | .hbm, ⟨37, _⟩ => ⟨S50000x256, .f32⟩
  | .hbm, ⟨38, _⟩ => ⟨S1x256, .f32⟩
  | .hbm, ⟨39, _⟩ => ⟨S50000x256, .f32⟩
  | .hbm, ⟨40, _⟩ => ⟨S50000x256, .f32⟩
  | .hbm, ⟨41, _⟩ => ⟨S_, .f32⟩
  | .hbm, ⟨42, _⟩ => ⟨S256, .f32⟩
  | .hbm, ⟨43, _⟩ => ⟨S256, .f32⟩
  | .hbm, ⟨44, _⟩ => ⟨S256, .f32⟩
  | .hbm, ⟨45, _⟩ => ⟨S1x256, .f32⟩
  | .hbm, ⟨46, _⟩ => ⟨S50000x256, .f32⟩
  | .hbm, ⟨47, _⟩ => ⟨S50000x256, .f32⟩
  | .hbm, ⟨48, _⟩ => ⟨S1x256, .f32⟩
  | .hbm, ⟨49, _⟩ => ⟨S50000x256, .f32⟩
  | .hbm, ⟨50, _⟩ => ⟨S50000x256, .f32⟩
  | .hbm, ⟨51, _⟩ => ⟨S1x256, .f32⟩
  | .hbm, ⟨52, _⟩ => ⟨S50000x256, .f32⟩
  | .hbm, ⟨53, _⟩ => ⟨S50000x256, .f32⟩
  | .hbm, ⟨54, _⟩ => ⟨S_, .f32⟩
  | .hbm, ⟨55, _⟩ => ⟨S50000x256, .f32⟩
  | .hbm, ⟨56, _⟩ => ⟨S50000x256, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x256, .f32⟩
  | .hbm, ⟨66, _⟩ => ⟨S_, .f32⟩
  | .hbm, ⟨67, _⟩ => ⟨S50000x256, .f32⟩
  | .hbm, ⟨68, _⟩ => ⟨S800000x1, .i32⟩
  | .hbm, ⟨69, _⟩ => ⟨S50000x256, .f32⟩
  | .hbm, ⟨70, _⟩ => ⟨S50000x256, .f32⟩
  | .hbm, ⟨71, _⟩ => ⟨S50000x256, .f32⟩
  | .hbm, ⟨72, _⟩ => ⟨S1x256, .f32⟩
  | .hbm, ⟨73, _⟩ => ⟨S50000x256, .f32⟩
  | .hbm, ⟨74, _⟩ => ⟨S50000x256, .f32⟩
  | .hbm, ⟨75, _⟩ => ⟨S1x256, .f32⟩
  | .hbm, ⟨76, _⟩ => ⟨S50000x256, .f32⟩
  | .hbm, ⟨77, _⟩ => ⟨S50000x256, .f32⟩
  | .hbm, ⟨78, _⟩ => ⟨S_, .f32⟩
  | .hbm, ⟨79, _⟩ => ⟨S256, .f32⟩
  | .hbm, ⟨80, _⟩ => ⟨S256, .f32⟩
  | .hbm, ⟨81, _⟩ => ⟨S256, .f32⟩
  | .hbm, ⟨82, _⟩ => ⟨S1x256, .f32⟩
  | .hbm, ⟨83, _⟩ => ⟨S50000x256, .f32⟩
  | .hbm, ⟨84, _⟩ => ⟨S50000x256, .f32⟩
  | .hbm, ⟨85, _⟩ => ⟨S1x256, .f32⟩
  | .hbm, ⟨86, _⟩ => ⟨S50000x256, .f32⟩
  | .hbm, ⟨87, _⟩ => ⟨S50000x256, .f32⟩
  | .hbm, ⟨88, _⟩ => ⟨S1x256, .f32⟩
  | .hbm, ⟨89, _⟩ => ⟨S50000x256, .f32⟩
  | .hbm, ⟨90, _⟩ => ⟨S50000x256, .f32⟩
  | .hbm, ⟨91, _⟩ => ⟨S_, .f32⟩
  | .hbm, ⟨92, _⟩ => ⟨S50000x256, .f32⟩
  | .hbm, ⟨93, _⟩ => ⟨S50000x256, .f32⟩
  | .hbm, ⟨94, _⟩ => ⟨S50000x2, .f32⟩
  | .hbm, ⟨95, _⟩ => ⟨S1x2, .f32⟩
  | .hbm, ⟨96, _⟩ => ⟨S50000x2, .f32⟩
  | .hbm, ⟨97, _⟩ => ⟨S50000x2, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_1 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_call0_cst : Ref sig .tc := ⟨.hbm, 54, rfl⟩
abbrev main_call0_v0 : Ref sig .tc := ⟨.hbm, 55, rfl⟩
abbrev main_v34 : Ref sig .tc := ⟨.hbm, 56, rfl⟩
abbrev main_c_2 : Ref sig .tc := ⟨.hbm, 57, rfl⟩
abbrev main_v35 : Ref sig .tc := ⟨.hbm, 58, rfl⟩
abbrev main_v36 : Ref sig .tc := ⟨.hbm, 59, rfl⟩
abbrev main_c_3 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_4 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_5 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call1_cst : Ref sig .tc := ⟨.hbm, 91, rfl⟩
abbrev main_call1_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S256 : S_.BroadcastsInDim S256 (![] : Fin 0 → Fin S256.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x2_S50000x2_1_0_0_1_n_n_wf : DotDims.WF S50000x256 S256x2 S50000x2 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x2_S50000x2_1_0_0_1_n_n : DotDims S50000x256 S256x2 S50000x2 where
  lhsContracting := [1]
  rhsContracting := [0]
  lhsNonContracting := [0]
  rhsNonContracting := [1]
  lhsBatch := []
  rhsBatch := []
  wf := dot_S50000x256_S256x2_S50000x2_1_0_0_1_n_n_wf

class Facts : Prop extends Facts₀ where

variable [Facts]
-- ==== Proof.KernelRun.lean ====
/-
  The idealized kernel's run with every buffer named.

  @main is four segments: the host operations before the first layer's call, that call, the host
  operations between the two calls, the second call.  The generated frame certificate follows the
  contents of the TensorCore's buffers through the four segments (`Gen.W0 … Gen.W4`) and concludes
  that the argument arrays end as launched.  The same run, read at EVERY unscoped buffer, says that
  each buffer ends at the last boundary's contents `Gen.W4`: in particular the result array.
-/
import proofs.«100313_j53463752900650_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and every unscoped buffer of
    every core ends at the contents the fold through the four segments gives it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The result array ends at the last boundary's contents. -/
theorem result_named : θ_run defs (onTc (τ := τ) (main (F := F))) ⟨m, fun _ => 0, ρ⟩ (fun r => ∀ c : Dev nD,
      r.2.mem ((c.tc : Thread nD τ).loc main_v46) = W4 m ρ c (Proc.devRef .tc main_v46)) :=
  (θ_run defs _ _).mono (fun r h c => h c _ (mem_uc main_v46 (by decide))) (run_all m ρ)

end Cert.KernelIdeal.Named

end
-- ==== Proof.LibFinite.lean ====
/-
  Real-valued extended reals.

  The extended reals `EReal = ℝ ∪ {⊥, ⊤}` are not a ring: distributivity fails at the
  infinities.  An algebraic identity between two extended-real expressions is therefore
  proved by first showing that every leaf is (the coercion of) a real number, and then
  computing in `ℝ`.  This file provides the predicate and its closure properties:

  * `IsReal x`   : `x` is the coercion of a real number (`isReal_iff`: equivalently
                    `x ≠ ⊤ ∧ x ≠ ⊥`); `AllReal v` : every entry of the family `v` is real
                    (`allReal_iff_exists`: `v` is the coercion of a real family).
  * `IsPosReal x`: `x` is the coercion of a positive real.
  * closure of `IsReal` under `0`, `1`, `+`, `-`, unary `-`, `*`, `max`, `min`,
    finite sums (`coe_finset_sum`: the coercion commutes with a finite sum), division by a
    nonzero real (`Ideal.div`), the reciprocal square root of a positive real
    (`Ideal.rsqrt`), and the pointwise versions for families (`AllReal`).
  * a sum of squares of reals is nonnegative; nonnegative + positive is positive.
-/
import Idealize.ShloMosaic.PureOps.Ideal

noncomputable section

namespace Cert.LibFinite

open Idealize.ShloMosaic
open scoped BigOperators

/-- An extended real is REAL when it is the coercion of a real number. -/
def IsReal (x : EReal) : Prop := ∃ r : ℝ, x = (r : EReal)

/-- An extended real is a POSITIVE REAL when it is the coercion of a positive real number. -/
def IsPosReal (x : EReal) : Prop := ∃ r : ℝ, 0 < r ∧ x = (r : EReal)

/-- Every entry of the family `v` is real. -/
def AllReal {ι : Sort*} (v : ι → EReal) : Prop := ∀ i, IsReal (v i)

/-- Every entry of the family `v` is a positive real. -/
def AllPosReal {ι : Sort*} (v : ι → EReal) : Prop := ∀ i, IsPosReal (v i)

/-! ### The predicate -/

/-- Real means: neither infinity. -/
theorem isReal_iff (x : EReal) : IsReal x ↔ x ≠ ⊤ ∧ x ≠ ⊥ := by
  constructor
  · rintro ⟨r, rfl⟩; exact ⟨EReal.coe_ne_top r, EReal.coe_ne_bot r⟩
  · rintro ⟨ht, hb⟩; exact ⟨x.toReal, (EReal.coe_toReal ht hb).symm⟩

theorem IsReal.ne_top {x : EReal} (h : IsReal x) : x ≠ ⊤ := ((isReal_iff x).mp h).1
theorem IsReal.ne_bot {x : EReal} (h : IsReal x) : x ≠ ⊥ := ((isReal_iff x).mp h).2

/-- A real extended real is the coercion of its own real part. -/
theorem IsReal.coe_toReal {x : EReal} (h : IsReal x) : ((x.toReal : ℝ) : EReal) = x :=
  EReal.coe_toReal h.ne_top h.ne_bot

theorem isReal_coe (r : ℝ) : IsReal (r : EReal) := ⟨r, rfl⟩
theorem isReal_zero : IsReal 0 := ⟨0, rfl⟩
theorem isReal_one : IsReal 1 := ⟨1, rfl⟩

theorem IsPosReal.isReal {x : EReal} (h : IsPosReal x) : IsReal x := let ⟨r, _, e⟩ := h; ⟨r, e⟩
theorem IsPosReal.pos {x : EReal} (h : IsPosReal x) : 0 < x := by
  obtain ⟨r, hr, rfl⟩ := h; exact EReal.coe_pos.mpr hr
theorem IsPosReal.ne_zero {x : EReal} (h : IsPosReal x) : x ≠ 0 := h.pos.ne'
theorem isPosReal_coe {r : ℝ} (h : 0 < r) : IsPosReal (r : EReal) := ⟨r, h, rfl⟩
/-- A real that is positive as an extended real is a positive real. -/
theorem IsReal.isPosReal {x : EReal} (h : IsReal x) (hp : 0 < x) : IsPosReal x := by
  obtain ⟨r, rfl⟩ := h; exact ⟨r, EReal.coe_pos.mp hp, rfl⟩

theorem AllPosReal.allReal {ι : Sort*} {v : ι → EReal} (h : AllPosReal v) : AllReal v := fun i => (h i).isReal

/-- A family is real exactly when it is the coercion of a family of reals. -/
theorem allReal_iff_exists {ι : Sort*} (v : ι → EReal) : AllReal v ↔ ∃ f : ι → ℝ, v = fun i => (f i : EReal) := by
  constructor
  · intro h; exact ⟨fun i => (v i).toReal, funext fun i => ((h i).coe_toReal).symm⟩
  · rintro ⟨f, rfl⟩ i; exact ⟨f i, rfl⟩

theorem allReal_coe {ι : Sort*} (f : ι → ℝ) : AllReal (fun i => (f i : EReal)) := fun i => ⟨f i, rfl⟩
theorem allReal_const {ι : Sort*} {c : EReal} (h : IsReal c) : AllReal (fun _ : ι => c) := fun _ => h
/-- Every entry of a reindexed family is an entry of the family. -/
theorem AllReal.comp {ι κ : Sort*} {v : ι → EReal} (h : AllReal v) (f : κ → ι) : AllReal (fun k => v (f k)) :=
  fun k => h (f k)

/-! ### Pointwise closure -/

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.neg {x : EReal} (hx : IsReal x) : IsReal (-x) := by
  obtain ⟨a, rfl⟩ := hx; exact ⟨-a, (EReal.coe_neg a).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The coercion commutes with `max` (it is monotone). -/
theorem coe_max (a b : ℝ) : ((max a b : ℝ) : EReal) = max (a : EReal) (b : EReal) :=
  (EReal.coe_strictMono.monotone).map_max
/-- The coercion commutes with `min`. -/
theorem coe_min (a b : ℝ) : ((min a b : ℝ) : EReal) = min (a : EReal) (b : EReal) :=
  (EReal.coe_strictMono.monotone).map_min

theorem IsReal.max {x y : EReal} (hx : IsReal x) (hy : IsReal y) : IsReal (max x y) := by
  obtain ⟨a, rfl⟩ := hx; obtain ⟨b, rfl⟩ := hy; exact ⟨Max.max a b, (coe_max a b).symm⟩
theorem IsReal.min {x y : EReal} (hx : IsReal x) (hy : IsReal y) : IsReal (min x y) := by
  obtain ⟨a, rfl⟩ := hx; obtain ⟨b, rfl⟩ := hy; exact ⟨Min.min a b, (coe_min a b).symm⟩

theorem IsPosReal.add {x y : EReal} (hx : IsPosReal x) (hy : IsPosReal y) : IsPosReal (x + y) := by
  obtain ⟨a, ha, rfl⟩ := hx; obtain ⟨b, hb, rfl⟩ := hy
  exact ⟨a + b, add_pos ha hb, (EReal.coe_add a b).symm⟩
theorem IsPosReal.mul {x y : EReal} (hx : IsPosReal x) (hy : IsPosReal y) : IsPosReal (x * y) := by
  obtain ⟨a, ha, rfl⟩ := hx; obtain ⟨b, hb, rfl⟩ := hy
  exact ⟨a * b, mul_pos ha hb, (EReal.coe_mul a b).symm⟩
/-- A nonnegative real plus a positive real is a positive real. -/
theorem IsPosReal.nonneg_add {x y : EReal} (hx : IsReal x) (hx0 : 0 ≤ x) (hy : IsPosReal y) : IsPosReal (x + y) := by
  obtain ⟨a, rfl⟩ := hx; obtain ⟨b, hb, rfl⟩ := hy
  exact ⟨a + b, add_pos_of_nonneg_of_pos (EReal.coe_nonneg.mp hx0) hb, (EReal.coe_add a b).symm⟩
/-- The maximum of a real and a positive real is a positive real. -/
theorem IsPosReal.max_right {x y : EReal} (hx : IsReal x) (hy : IsPosReal y) : IsPosReal (max x y) :=
  (hx.max hy.isReal).isPosReal (lt_of_lt_of_le hy.pos (le_max_right x y))
theorem IsPosReal.max_left {x y : EReal} (hx : IsPosReal x) (hy : IsReal y) : IsPosReal (max x y) :=
  (hx.isReal.max hy).isPosReal (lt_of_lt_of_le hx.pos (le_max_left x y))

/-- The square of a real extended real is nonnegative. -/
theorem IsReal.mul_self_nonneg {x : EReal} (hx : IsReal x) : 0 ≤ x * x := by
  obtain ⟨a, rfl⟩ := hx; rw [← EReal.coe_mul]; exact EReal.coe_nonneg.mpr (_root_.mul_self_nonneg a)

/-! ### Finite sums -/

/-- The coercion `ℝ → EReal` commutes with a finite sum. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real extended reals is real. -/
theorem IsReal.sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A finite sum over a real family is real. -/
theorem AllReal.sum {ι : Type*} {f : ι → EReal} (h : AllReal f) (s : Finset ι) : IsReal (∑ i ∈ s, f i) :=
  IsReal.sum s f fun i _ => h i

/-- A finite sum of products of two real families is real (a dot product). -/
theorem AllReal.sum_mul {ι : Type*} {f g : ι → EReal} (hf : AllReal f) (hg : AllReal g) (s : Finset ι) :
    IsReal (∑ i ∈ s, f i * g i) :=
  IsReal.sum s _ fun i _ => (hf i).mul (hg i)

/-- A finite sum of nonnegative extended reals is nonnegative. -/
theorem sum_nonneg {ι : Type*} (s : Finset ι) (f : ι → EReal) (h : ∀ i ∈ s, 0 ≤ f i) : 0 ≤ ∑ i ∈ s, f i :=
  Finset.sum_nonneg h

/-- A finite sum of squares of real extended reals is nonnegative. -/
theorem sum_mul_self_nonneg {ι : Type*} (s : Finset ι) {f : ι → EReal} (h : ∀ i ∈ s, IsReal (f i)) :
    0 ≤ ∑ i ∈ s, f i * f i :=
  Finset.sum_nonneg fun i hi => (h i hi).mul_self_nonneg

/-! ### Division and the reciprocal square root -/

/-- A real divided by a NONZERO real is real: `x / y = x * y⁻¹`. -/
theorem IsReal.div {x y : EReal} (hx : IsReal x) (hy : IsReal y) (hy0 : y ≠ 0) : IsReal (Ideal.div x y) := by
  obtain ⟨a, rfl⟩ := hx; obtain ⟨b, rfl⟩ := hy
  have hb : b ≠ 0 := fun h => hy0 (by rw [h]; rfl)
  rw [Ideal.div_coe hb]
  exact (isReal_coe a).mul (isReal_coe _)

/-- The quotient of two reals, the divisor nonzero, is the coercion of the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- A positive real divided by a positive real is a positive real. -/
theorem IsPosReal.div {x y : EReal} (hx : IsPosReal x) (hy : IsPosReal y) : IsPosReal (Ideal.div x y) := by
  obtain ⟨a, ha, rfl⟩ := hx; obtain ⟨b, hb, rfl⟩ := hy
  rw [div_coe_coe a hb.ne']
  exact ⟨a / b, div_pos ha hb, rfl⟩

/-- The reciprocal square root of a positive real is `(√r)⁻¹`. -/
theorem rsqrt_coe_of_pos {r : ℝ} (h : 0 < r) : Ideal.rsqrt (r : EReal) = (((Real.sqrt r)⁻¹ : ℝ) : EReal) := by
  rw [Ideal.rsqrt_coe, if_neg (not_lt.mpr h.le), if_neg h.ne']

/-- The reciprocal square root of a positive real is a positive real. -/
theorem IsPosReal.rsqrt {x : EReal} (hx : IsPosReal x) : IsPosReal (Ideal.rsqrt x) := by
  obtain ⟨r, hr, rfl⟩ := hx
  rw [rsqrt_coe_of_pos hr]
  exact ⟨_, inv_pos.mpr (Real.sqrt_pos.mpr hr), rfl⟩

/-! ### Families, pointwise -/

section Families
variable {ι : Sort*} {v w : ι → EReal}

theorem AllReal.add (hv : AllReal v) (hw : AllReal w) : AllReal (fun i => v i + w i) := fun i => (hv i).add (hw i)
theorem AllReal.sub (hv : AllReal v) (hw : AllReal w) : AllReal (fun i => v i - w i) := fun i => (hv i).sub (hw i)
theorem AllReal.mul (hv : AllReal v) (hw : AllReal w) : AllReal (fun i => v i * w i) := fun i => (hv i).mul (hw i)
theorem AllReal.neg (hv : AllReal v) : AllReal (fun i => -v i) := fun i => (hv i).neg
theorem AllReal.max (hv : AllReal v) (hw : AllReal w) : AllReal (fun i => Max.max (v i) (w i)) :=
  fun i => (hv i).max (hw i)
theorem AllReal.min (hv : AllReal v) (hw : AllReal w) : AllReal (fun i => Min.min (v i) (w i)) :=
  fun i => (hv i).min (hw i)
theorem AllReal.div (hv : AllReal v) (hw : AllReal w) (hw0 : ∀ i, w i ≠ 0) :
    AllReal (fun i => Ideal.div (v i) (w i)) := fun i => (hv i).div (hw i) (hw0 i)
theorem AllPosReal.rsqrt (hv : AllPosReal v) : AllPosReal (fun i => Ideal.rsqrt (v i)) := fun i => (hv i).rsqrt

end Families

end Cert.LibFinite

end
-- ==== Proof.LibFiniteLits.lean ====
/-
  The binary32 literals of a graph-network / normalisation pipeline, read as extended reals:
  each denotes a real number, and the two small ones a POSITIVE real.

  * `0x00000000` is `0`, `0x3F800000` is `1`, `0x40000000` is `2`, `0x47C35000` is `100000`;
  * `0x2B8CBCCC` is `9223372 · 2⁻⁶³` (the binary32 nearest `10⁻¹²`), positive;
  * `0x3727C5AC` is `10995116 · 2⁻⁴⁰` (the binary32 nearest `10⁻⁵`), positive;
  * `0x7FC00000` (a NaN pattern) is `⊥`: NOT real.
-/
import proofs.«100313_j53463752900650_1_alg».proof.Proof.LibFinite

noncomputable section

namespace Cert.LibFinite

open Idealize.ShloMosaic

theorem ofBits_f32_zero : Ideal.ofBits .f32 0x00000000#32 = 0 := by simp [Ideal.ofBits, Ideal.ieee]
theorem ofBits_f32_one : Ideal.ofBits .f32 0x3F800000#32 = 1 := by
  simp [Ideal.ofBits, Ideal.ieee, -EReal.coe_mul]; norm_num
theorem ofBits_f32_two : Ideal.ofBits .f32 0x40000000#32 = ((2 : ℝ) : EReal) := by
  simp [Ideal.ofBits, Ideal.ieee, -EReal.coe_mul]; norm_num
theorem ofBits_f32_1e5 : Ideal.ofBits .f32 0x47C35000#32 = ((100000 : ℝ) : EReal) := by
  simp [Ideal.ofBits, Ideal.ieee, -EReal.coe_mul]; norm_num
theorem ofBits_f32_1em12 : Ideal.ofBits .f32 0x2B8CBCCC#32 = ((9223372 * (2 : ℝ) ^ (-63 : ℤ) : ℝ) : EReal) := by
  simp [Ideal.ofBits, Ideal.ieee, -EReal.coe_mul]
theorem ofBits_f32_1em5 : Ideal.ofBits .f32 0x3727C5AC#32 = ((10995116 * (2 : ℝ) ^ (-40 : ℤ) : ℝ) : EReal) := by
  simp [Ideal.ofBits, Ideal.ieee, -EReal.coe_mul]
theorem ofBits_f32_nan : Ideal.ofBits .f32 0x7FC00000#32 = ⊥ := by simp [Ideal.ofBits, Ideal.ieee]

theorem isReal_ofBits_zero : IsReal (Ideal.ofBits .f32 0x00000000#32) := ofBits_f32_zero ▸ isReal_zero
theorem isReal_ofBits_one : IsReal (Ideal.ofBits .f32 0x3F800000#32) := ofBits_f32_one ▸ isReal_one
theorem isPosReal_ofBits_one : IsPosReal (Ideal.ofBits .f32 0x3F800000#32) := ⟨1, one_pos, ofBits_f32_one⟩
theorem isPosReal_ofBits_two : IsPosReal (Ideal.ofBits .f32 0x40000000#32) := ⟨2, two_pos, ofBits_f32_two⟩
theorem isPosReal_ofBits_1e5 : IsPosReal (Ideal.ofBits .f32 0x47C35000#32) := ⟨100000, by norm_num, ofBits_f32_1e5⟩
theorem isPosReal_ofBits_1em12 : IsPosReal (Ideal.ofBits .f32 0x2B8CBCCC#32) := ⟨_, by positivity, ofBits_f32_1em12⟩
theorem isPosReal_ofBits_1em5 : IsPosReal (Ideal.ofBits .f32 0x3727C5AC#32) := ⟨_, by positivity, ofBits_f32_1em5⟩
theorem isReal_ofBits_two : IsReal (Ideal.ofBits .f32 0x40000000#32) := isPosReal_ofBits_two.isReal
theorem isReal_ofBits_1e5 : IsReal (Ideal.ofBits .f32 0x47C35000#32) := isPosReal_ofBits_1e5.isReal
theorem isReal_ofBits_1em12 : IsReal (Ideal.ofBits .f32 0x2B8CBCCC#32) := isPosReal_ofBits_1em12.isReal
theorem isReal_ofBits_1em5 : IsReal (Ideal.ofBits .f32 0x3727C5AC#32) := isPosReal_ofBits_1em5.isReal
theorem ofBits_1e5_ne_zero : Ideal.ofBits .f32 0x47C35000#32 ≠ 0 := isPosReal_ofBits_1e5.ne_zero

end Cert.LibFinite

end
-- ==== Proof.LibLaws.lean ====
/-
  Algebraic laws between extended-real expressions whose leaves are real.

  The extended reals are not a ring (distributivity fails at `±∞`), so each law below
  assumes its leaves are real (`Cert.LibFinite.IsReal`), moves to `ℝ` through the coercion
  and computes there.

  * `batchnorm_law`      : `(x - m) * r * g + b = x * (g * r) + (b - m * (g * r))`
                            (normalise-then-scale against a folded scale and shift).
  * `batchnorm_law_fun`  : the same for families, pointwise.
  * `sum_mul_mul_eq`     : `∑ k ∈ s, (t * z k) * c k = t * ∑ k ∈ s, z k * c k`.
  * `sum_mul_left_eq`    : `∑ k ∈ s, t * f k = t * ∑ k ∈ s, f k`.
  * `mul_add_real`, `mul_sub_real`, `add_mul_real`, `sub_mul_real` : distributivity for reals.
  * `toReal_add`, `toReal_mul`, … and the `coe_*` lemmas: the coercion `ℝ → EReal`
    commutes with `+ - * max min ∑`, so that a goal between two extended-real expressions
    with real leaves is closed by: obtain real witnesses, `push_cast` / `norm_cast`, `ring`
    (the tactic `ereal_ring` below does the last two steps).
-/
import proofs.«100313_j53463752900650_1_alg».proof.Proof.LibFinite

noncomputable section

namespace Cert.LibLaws

open Cert.LibFinite
open scoped BigOperators

/-- Closes an equation between extended reals all of whose leaves are coercions of reals:
    pull the coercion outward, then compute in `ℝ`. -/
macro "ereal_ring" : tactic =>
  `(tactic| (simp only [← EReal.coe_add, ← EReal.coe_sub, ← EReal.coe_mul, ← EReal.coe_neg,
      ← Cert.LibFinite.coe_max, ← Cert.LibFinite.coe_min, ← EReal.coe_zero, ← EReal.coe_one,
      EReal.coe_eq_coe_iff]; try (first | ring1 | ring_nf)))

/-! ### Distributivity for reals -/

theorem mul_add_real {a b c : EReal} (ha : IsReal a) (hb : IsReal b) (hc : IsReal c) :
    a * (b + c) = a * b + a * c := by
  obtain ⟨a, rfl⟩ := ha; obtain ⟨b, rfl⟩ := hb; obtain ⟨c, rfl⟩ := hc; ereal_ring
theorem mul_sub_real {a b c : EReal} (ha : IsReal a) (hb : IsReal b) (hc : IsReal c) :
    a * (b - c) = a * b - a * c := by
  obtain ⟨a, rfl⟩ := ha; obtain ⟨b, rfl⟩ := hb; obtain ⟨c, rfl⟩ := hc; ereal_ring
theorem add_mul_real {a b c : EReal} (ha : IsReal a) (hb : IsReal b) (hc : IsReal c) :
    (a + b) * c = a * c + b * c := by
  obtain ⟨a, rfl⟩ := ha; obtain ⟨b, rfl⟩ := hb; obtain ⟨c, rfl⟩ := hc; ereal_ring
theorem sub_mul_real {a b c : EReal} (ha : IsReal a) (hb : IsReal b) (hc : IsReal c) :
    (a - b) * c = a * c - b * c := by
  obtain ⟨a, rfl⟩ := ha; obtain ⟨b, rfl⟩ := hb; obtain ⟨c, rfl⟩ := hc; ereal_ring

/-! ### The normalisation law -/

/-- Normalise, scale and shift, against the folded affine form: for real `x m r g b`,
    `(x - m) * r * g + b = x * (g * r) + (b - m * (g * r))`. -/
theorem batchnorm_law {x m r g b : EReal} (hx : IsReal x) (hm : IsReal m) (hr : IsReal r) (hg : IsReal g)
    (hb : IsReal b) : (x - m) * r * g + b = x * (g * r) + (b - m * (g * r)) := by
  obtain ⟨x, rfl⟩ := hx; obtain ⟨m, rfl⟩ := hm; obtain ⟨r, rfl⟩ := hr; obtain ⟨g, rfl⟩ := hg
  obtain ⟨b, rfl⟩ := hb
  ereal_ring

/-- The same with the folded side first. -/
theorem batchnorm_law_symm {x m r g b : EReal} (hx : IsReal x) (hm : IsReal m) (hr : IsReal r) (hg : IsReal g)
    (hb : IsReal b) : x * (g * r) + (b - m * (g * r)) = (x - m) * r * g + b :=
  (batchnorm_law hx hm hr hg hb).symm

/-- The normalisation law for families: rows `i`, features `j`; the statistics and the
    parameters depend on the feature only. -/
theorem batchnorm_law_fun {ι κ : Sort*} {x : ι → κ → EReal} {m r g b : κ → EReal}
    (hx : ∀ i j, IsReal (x i j)) (hm : AllReal m) (hr : AllReal r) (hg : AllReal g) (hb : AllReal b) (i : ι) (j : κ) :
    (x i j - m j) * r j * g j + b j = x i j * (g j * r j) + (b j - m j * (g j * r j)) :=
  batchnorm_law (hx i j) (hm j) (hr j) (hg j) (hb j)

/-! ### Sums -/

/-- A real factor leaves a finite sum of reals. -/
theorem sum_mul_left_eq {ι : Type*} (s : Finset ι) {t : EReal} {f : ι → EReal} (ht : IsReal t)
    (hf : ∀ k ∈ s, IsReal (f k)) : ∑ k ∈ s, t * f k = t * ∑ k ∈ s, f k := by
  classical
  induction s using Finset.induction_on with
  | empty => simp
  | insert a s ha ih =>
    have hfa : IsReal (f a) := hf a (Finset.mem_insert_self a s)
    have hfs : ∀ k ∈ s, IsReal (f k) := fun k hk => hf k (Finset.mem_insert_of_mem hk)
    rw [Finset.sum_insert ha, Finset.sum_insert ha, ih hfs, mul_add_real ht hfa (IsReal.sum s f hfs)]

/-- A real factor leaves a dot product of reals: `∑ (t * z k) * c k = t * ∑ z k * c k`. -/
theorem sum_mul_mul_eq {ι : Type*} (s : Finset ι) {t : EReal} {z c : ι → EReal} (ht : IsReal t)
    (hz : ∀ k ∈ s, IsReal (z k)) (hc : ∀ k ∈ s, IsReal (c k)) :
    ∑ k ∈ s, (t * z k) * c k = t * ∑ k ∈ s, z k * c k := by
  rw [← sum_mul_left_eq s ht fun k hk => (hz k hk).mul (hc k hk)]
  exact Finset.sum_congr rfl fun k _ => mul_assoc _ _ _

/-- The same over a whole finite index type, for real families. -/
theorem sum_univ_mul_mul_eq {ι : Type*} [Fintype ι] {t : EReal} {z c : ι → EReal} (ht : IsReal t)
    (hz : AllReal z) (hc : AllReal c) : ∑ k, (t * z k) * c k = t * ∑ k, z k * c k :=
  sum_mul_mul_eq Finset.univ ht (fun k _ => hz k) (fun k _ => hc k)

/-- The factor on the other side: `∑ z k * (t * c k) = t * ∑ z k * c k`. -/
theorem sum_mul_mul_eq' {ι : Type*} (s : Finset ι) {t : EReal} {z c : ι → EReal} (ht : IsReal t)
    (hz : ∀ k ∈ s, IsReal (z k)) (hc : ∀ k ∈ s, IsReal (c k)) :
    ∑ k ∈ s, z k * (t * c k) = t * ∑ k ∈ s, z k * c k := by
  rw [← sum_mul_left_eq s ht fun k hk => (hz k hk).mul (hc k hk)]
  exact Finset.sum_congr rfl fun k _ => mul_left_comm _ _ _

/-! ### The real part -/

theorem toReal_add {x y : EReal} (hx : IsReal x) (hy : IsReal y) : (x + y).toReal = x.toReal + y.toReal := by
  obtain ⟨a, rfl⟩ := hx; obtain ⟨b, rfl⟩ := hy; rw [← EReal.coe_add]; rfl
theorem toReal_sub {x y : EReal} (hx : IsReal x) (hy : IsReal y) : (x - y).toReal = x.toReal - y.toReal := by
  obtain ⟨a, rfl⟩ := hx; obtain ⟨b, rfl⟩ := hy; rw [← EReal.coe_sub]; rfl
theorem toReal_mul {x y : EReal} (hx : IsReal x) (hy : IsReal y) : (x * y).toReal = x.toReal * y.toReal := by
  obtain ⟨a, rfl⟩ := hx; obtain ⟨b, rfl⟩ := hy; rw [← EReal.coe_mul]; rfl
theorem toReal_max {x y : EReal} (hx : IsReal x) (hy : IsReal y) : (max x y).toReal = max x.toReal y.toReal := by
  obtain ⟨a, rfl⟩ := hx; obtain ⟨b, rfl⟩ := hy; rw [← coe_max]; rfl

/-- Two real extended reals with the same real part are equal. -/
theorem eq_of_toReal_eq {x y : EReal} (hx : IsReal x) (hy : IsReal y) (h : x.toReal = y.toReal) : x = y := by
  rw [← hx.coe_toReal, ← hy.coe_toReal, h]

example (a b c : ℝ) : max ((a : EReal) * b + c) 0 - 1 = max ((b : EReal) * a + c) 0 - 1 := by ereal_ring

end Cert.LibLaws

end
-- ==== Proof.LibRowsLayer.lean ====
/-
  The mathematics of a two-layer mean-aggregating graph network, on the extended reals.

  A dense layer on the rows of two arrays: entry (r, c) of `layer a x Wl Wr b` is
      max( Σ_q a(r,q)·Wl(q,c) + Σ_q x(r,q)·Wr(q,c) + b(c), 0 ),
  and a linear head: entry (r, c) of `head h W b` is Σ_q h(r,q)·W(q,c) + b(c).
  Both depend on row r of their row operands only, so a block of consecutive rows of the result
  is the same function of the same block of rows of the operands (`layer_rows`, `head_rows`).
-/
import Idealize.ShloMosaic.PureOps.Ideal
import Idealize.ShloMosaic.Lib.ValueIdx

noncomputable section

namespace Cert.Sage

open Idealize.ShloMosaic Idealize.ShloMosaic.ValueIdx
open scoped BigOperators

/-- A rank-2 array of extended reals. -/
abbrev Arr2 (n k : Nat) : Type := (⟨2, ![n, k]⟩ : Shape).Idx → EReal
/-- A rank-1 array of extended reals. -/
abbrev Arr1 (c : Nat) : Type := (⟨1, ![c]⟩ : Shape).Idx → EReal

variable {n N k c : Nat}

/-- The float zero both programs clip at. -/
def zeroF : EReal := Ideal.ofBits .f32 0x00000000#32

/-- The row coordinate of an index, as a number below the row extent. -/
abbrev rowOf {n c : Nat} (i : (⟨2, ![n, c]⟩ : Shape).Idx) : Fin n := ⟨(i 0).val, idx2_lt0 i⟩
/-- The column coordinate of an index, as a number below the column extent. -/
abbrev colOf {n c : Nat} (i : (⟨2, ![n, c]⟩ : Shape).Idx) : Fin c := ⟨(i 1).val, idx2_lt1 i⟩

/-- Rows against columns: entry (r, c) is Σ_q a(r,q)·W(q,c). -/
def rowsMul (a : Arr2 n k) (W : Arr2 k c) : Arr2 n c :=
  fun i => ∑ q : Fin k, a (ix2 (rowOf i) q) * W (ix2 q (colOf i))

/-- A row vector added to every row. -/
def addRow (v : Arr2 n c) (b : Arr1 c) : Arr2 n c := fun i => v i + b (ix1 (colOf i))

/-- One layer: the aggregated rows through `Wl`, the rows themselves through `Wr`, the bias, clipped below at zero. -/
def layer (a x : Arr2 n k) (Wl Wr : Arr2 k c) (b : Arr1 c) : Arr2 n c :=
  fun i => max (rowsMul a Wl i + rowsMul x Wr i + b (ix1 (colOf i))) zeroF

/-- A linear head. -/
def head (h : Arr2 n k) (W : Arr2 k c) (b : Arr1 c) : Arr2 n c :=
  fun i => rowsMul h W i + b (ix1 (colOf i))

/-- `rowsMul` at row `r` reads row `r` of its row operand only. -/
theorem rowsMul_rows (A : Arr2 N k) (a : Arr2 n k) (W : Arr2 k c) (I : (⟨2, ![N, c]⟩ : Shape).Idx)
    (i : (⟨2, ![n, c]⟩ : Shape).Idx) (hc : (I 1).val = (i 1).val)
    (ha : ∀ q : Fin k, A (ix2 (rowOf I) q) = a (ix2 (rowOf i) q)) :
    rowsMul A W I = rowsMul a W i := by
  unfold rowsMul
  refine Finset.sum_congr rfl fun q _ => ?_
  rw [ha q]
  have : colOf I = colOf i := Fin.ext hc
  rw [this]

/-- A block of rows of a layer is the layer of the blocks of rows. -/
theorem layer_rows (A X : Arr2 N k) (a x : Arr2 n k) (Wl Wr : Arr2 k c) (b : Arr1 c)
    (I : (⟨2, ![N, c]⟩ : Shape).Idx) (i : (⟨2, ![n, c]⟩ : Shape).Idx) (hc : (I 1).val = (i 1).val)
    (ha : ∀ q : Fin k, A (ix2 (rowOf I) q) = a (ix2 (rowOf i) q))
    (hx : ∀ q : Fin k, X (ix2 (rowOf I) q) = x (ix2 (rowOf i) q)) :
    layer A X Wl Wr b I = layer a x Wl Wr b i := by
  unfold layer
  rw [rowsMul_rows A a Wl I i hc ha, rowsMul_rows X x Wr I i hc hx]
  have : colOf I = colOf i := Fin.ext hc
  rw [this]

/-- A block of rows of a head is the head of the block of rows. -/
theorem head_rows (H : Arr2 N k) (h : Arr2 n k) (W : Arr2 k c) (b : Arr1 c)
    (I : (⟨2, ![N, c]⟩ : Shape).Idx) (i : (⟨2, ![n, c]⟩ : Shape).Idx) (hc : (I 1).val = (i 1).val)
    (hh : ∀ q : Fin k, H (ix2 (rowOf I) q) = h (ix2 (rowOf i) q)) :
    head H W b I = head h W b i := by
  unfold head
  rw [rowsMul_rows H h W I i hc hh]
  have : colOf I = colOf i := Fin.ext hc
  rw [this]

end Cert.Sage

end
-- ==== Proof.GinSpec.lean ====
/-
  A two-layer graph isomorphism network in evaluation mode, on the extended reals.

  Each layer takes the aggregated node features `A` (a node's own row plus the sum of its in-neighbours'
  rows), applies a dense map `A·W + b`, a batch normalisation with running statistics, and clips below at
  zero; a linear head follows the second layer.  The normalisation is written in two ways:

    normalise, then scale and shift   max( ((A·W + b) − m) · r · g + β , 0 )        r = (v + ε)^(−1/2)
    folded scale and shift            max( (A·W + b) · (g · r) + (β − m · (g · r)) , 0 )

  On real numbers these agree (ring arithmetic).  On the extended reals they agree when every leaf is a
  real number; that is the content of `normLayer_eq_foldedLayer`.  Everything here is stated index by
  index over rank-2 arrays [rows, features]; `foldedLayer` and `headRow` take their per-feature
  parameters as one-row arrays [1, features], `normLayer` and `head` as vectors [features].
-/
import Idealize.ShloMosaic.PureOps.Ideal
import Idealize.ShloMosaic.PureOps.Ideal.Laws
import Idealize.ShloMosaic.Lib.ValueIdx
import proofs.«100313_j53463752900650_1_alg».proof.Proof.LibFinite
import proofs.«100313_j53463752900650_1_alg».proof.Proof.LibFiniteLits
import proofs.«100313_j53463752900650_1_alg».proof.Proof.LibLaws
import proofs.«100313_j53463752900650_1_alg».proof.Proof.LibRowsLayer

noncomputable section

namespace Cert.Gin

open Idealize.ShloMosaic Idealize.ShloMosaic.ValueIdx Cert.LibFinite Cert.LibLaws Cert.Sage
open scoped BigOperators

variable {n N k c : Nat}

/-- A one-row array of extended reals. -/
abbrev Row (c : Nat) : Type := (⟨2, ![1, c]⟩ : Shape).Idx → EReal

/-- The layer with the normalisation folded into one scale `s` and one shift `t` per feature. -/
def foldedLayer (A : Arr2 n k) (W : Arr2 k c) (b s t : Row c) : Arr2 n c :=
  fun i => max ((rowsMul A W i + b (ix2 0 (colOf i))) * s (ix2 0 (colOf i)) + t (ix2 0 (colOf i))) zeroF

/-- The linear head with its bias as a one-row array. -/
def headRow (H : Arr2 n k) (W : Arr2 k c) (b : Row c) : Arr2 n c :=
  fun i => rowsMul H W i + b (ix2 0 (colOf i))

/-- The layer as the reference writes it: subtract the running mean, multiply by the reciprocal standard
    deviation `r`, by the scale `g`, add the shift `be`. -/
def normLayer (A : Arr2 n k) (W : Arr2 k c) (b m r g be : Arr1 c) : Arr2 n c :=
  fun i => max ((rowsMul A W i + b (ix1 (colOf i)) - m (ix1 (colOf i))) * r (ix1 (colOf i)) * g (ix1 (colOf i))
    + be (ix1 (colOf i))) zeroF

theorem isReal_zeroF : IsReal zeroF := isReal_ofBits_zero

/-- A row–column sum of reals is real. -/
theorem isReal_rowsMul {A : Arr2 n k} {W : Arr2 k c} (hA : AllReal A) (hW : AllReal W) (i : (⟨2, ![n, c]⟩ : Shape).Idx) :
    IsReal (rowsMul A W i) :=
  IsReal.sum _ _ fun q _ => (hA _).mul (hW _)

/-- A normalised layer of real operands is real. -/
theorem allReal_normLayer {A : Arr2 n k} {W : Arr2 k c} {b m r g be : Arr1 c} (hA : AllReal A) (hW : AllReal W)
    (hb : AllReal b) (hm : AllReal m) (hr : AllReal r) (hg : AllReal g) (hbe : AllReal be) :
    AllReal (normLayer A W b m r g be) := fun i =>
  (((((isReal_rowsMul hA hW i).add (hb _)).sub (hm _)).mul (hr _)).mul (hg _)).add (hbe _) |>.max isReal_zeroF

/-- The two spellings of the normalisation agree on real operands: with `b'` the bias as a row,
    `s = g · r` and `t = be − m · (g · r)` as rows. -/
theorem normLayer_eq_foldedLayer {A : Arr2 n k} {W : Arr2 k c} {b m r g be : Arr1 c} {b' s t : Row c}
    (hA : AllReal A) (hW : AllReal W) (hb : AllReal b) (hm : AllReal m) (hr : AllReal r) (hg : AllReal g)
    (hbe : AllReal be) (eb : ∀ q : Fin c, b' (ix2 0 q) = b (ix1 q)) (es : ∀ q : Fin c, s (ix2 0 q) = g (ix1 q) * r (ix1 q))
    (et : ∀ q : Fin c, t (ix2 0 q) = be (ix1 q) - m (ix1 q) * (g (ix1 q) * r (ix1 q))) :
    foldedLayer A W b' s t = normLayer A W b m r g be := by
  funext i
  unfold foldedLayer normLayer
  rw [eb, es, et]
  exact congrArg (fun z => max z zeroF)
    (batchnorm_law ((isReal_rowsMul hA hW i).add (hb _)) (hm _) (hr _) (hg _) (hbe _)).symm

/-- The head with its bias as a row is the head with its bias as a vector. -/
theorem headRow_eq_head (H : Arr2 n k) (W : Arr2 k c) {b : Arr1 c} {b' : Row c} (eb : ∀ q : Fin c, b' (ix2 0 q) = b (ix1 q)) :
    headRow H W b' = head H W b := by
  funext i
  unfold headRow head
  rw [eb]

/-- A block of rows of a folded layer is the folded layer of the block of rows. -/
theorem foldedLayer_rows (A : Arr2 N k) (a : Arr2 n k) (W : Arr2 k c) (b s t : Row c)
    (I : (⟨2, ![N, c]⟩ : Shape).Idx) (i : (⟨2, ![n, c]⟩ : Shape).Idx) (hc : (I 1).val = (i 1).val)
    (ha : ∀ q : Fin k, A (ix2 (rowOf I) q) = a (ix2 (rowOf i) q)) :
    foldedLayer A W b s t I = foldedLayer a W b s t i := by
  unfold foldedLayer
  rw [rowsMul_rows A a W I i hc ha]
  have : colOf I = colOf i := Fin.ext hc
  rw [this]

/-- A block of rows of a head is the head of the block of rows. -/
theorem headRow_rows (H : Arr2 N k) (h : Arr2 n k) (W : Arr2 k c) (b : Row c)
    (I : (⟨2, ![N, c]⟩ : Shape).Idx) (i : (⟨2, ![n, c]⟩ : Shape).Idx) (hc : (I 1).val = (i 1).val)
    (hh : ∀ q : Fin k, H (ix2 (rowOf I) q) = h (ix2 (rowOf i) q)) :
    headRow H W b I = headRow h W b i := by
  unfold headRow
  rw [rowsMul_rows H h W I i hc hh]
  have : colOf I = colOf i := Fin.ext hc
  rw [this]

/-- The whole network in the folded spelling is the whole network in the reference's spelling, for ANY
    aggregation `agg` that keeps real arrays real: real inputs, the reciprocal deviations `r₁ r₂` real. -/
theorem network_eq {d : Nat} (agg : Arr2 N d → Arr2 N d) (hagg : ∀ X, AllReal X → AllReal (agg X))
    {X : Arr2 N d} {W1 W2 : Arr2 d d} {Wc : Arr2 d c} {b1 m1 r1 g1 be1 b2 m2 r2 g2 be2 : Arr1 d} {bc : Arr1 c}
    {b1' s1 t1 b2' s2 t2 : Row d} {bc' : Row c}
    (hX : AllReal X) (hW1 : AllReal W1) (hW2 : AllReal W2)
    (hb1 : AllReal b1) (hm1 : AllReal m1) (hr1 : AllReal r1) (hg1 : AllReal g1) (hbe1 : AllReal be1)
    (hb2 : AllReal b2) (hm2 : AllReal m2) (hr2 : AllReal r2) (hg2 : AllReal g2) (hbe2 : AllReal be2)
    (eb1 : ∀ q : Fin d, b1' (ix2 0 q) = b1 (ix1 q)) (es1 : ∀ q : Fin d, s1 (ix2 0 q) = g1 (ix1 q) * r1 (ix1 q))
    (et1 : ∀ q : Fin d, t1 (ix2 0 q) = be1 (ix1 q) - m1 (ix1 q) * (g1 (ix1 q) * r1 (ix1 q)))
    (eb2 : ∀ q : Fin d, b2' (ix2 0 q) = b2 (ix1 q)) (es2 : ∀ q : Fin d, s2 (ix2 0 q) = g2 (ix1 q) * r2 (ix1 q))
    (et2 : ∀ q : Fin d, t2 (ix2 0 q) = be2 (ix1 q) - m2 (ix1 q) * (g2 (ix1 q) * r2 (ix1 q)))
    (ebc : ∀ q : Fin c, bc' (ix2 0 q) = bc (ix1 q)) :
    headRow (foldedLayer (agg (foldedLayer (agg X) W1 b1' s1 t1)) W2 b2' s2 t2) Wc bc'
      = head (normLayer (agg (normLayer (agg X) W1 b1 m1 r1 g1 be1)) W2 b2 m2 r2 g2 be2) Wc bc := by
  have hA1 : AllReal (agg X) := hagg X hX
  have e1 : foldedLayer (agg X) W1 b1' s1 t1 = normLayer (agg X) W1 b1 m1 r1 g1 be1 :=
    normLayer_eq_foldedLayer hA1 hW1 hb1 hm1 hr1 hg1 hbe1 eb1 es1 et1
  have hH1 : AllReal (normLayer (agg X) W1 b1 m1 r1 g1 be1) := allReal_normLayer hA1 hW1 hb1 hm1 hr1 hg1 hbe1
  have hA2 : AllReal (agg (normLayer (agg X) W1 b1 m1 r1 g1 be1)) := hagg _ hH1
  rw [e1, normLayer_eq_foldedLayer hA2 hW2 hb2 hm2 hr2 hg2 hbe2 eb2 es2 et2, headRow_eq_head _ _ ebc]

end Cert.Gin

end
-- ==== Proof.LibRowsDot.lean ====
/-
  A plain matrix product read as rows against columns.

  A `tpu.matmul` of an [n, k] array with a [k, c] array into a zero accumulator, whose dimension numbers
  contract the second axis of the left operand with the first of the right and keep the other two in
  order, is at entry (p, q) the sum over the contraction position of left(p, ·)·right(·, q): `rowsMul`.
  The four coordinate facts of the dimension numbers are hypotheses (each record proves them by unfolding).
-/
import proofs.«100313_j53463752900650_1_alg».proof.Proof.LibRowsLayer
import Idealize.ShloMosaic.PureOps.Ideal.Laws

noncomputable section

namespace Cert.Sage

open Idealize.ShloMosaic Idealize.ShloMosaic.ValueIdx
open scoped BigOperators

/-- The matrix product into zeros, at entry (p, q), is the row–column sum. -/
theorem matmul_zero_rows {n k c : Nat} {φ₁ φ₂ : FTy}
    (D : DotDims ⟨2, ![n, k]⟩ ⟨2, ![k, c]⟩ ⟨2, ![n, c]⟩) (hr : D.contr.rank = 1)
    (hs : D.contr.size ⟨0, by omega⟩ = k)
    (l0 : ∀ (i : (⟨2, ![n, c]⟩ : Shape).Idx) (q : D.contr.Idx), (D.lhsIdx i q 0).val = (i 0).val)
    (l1 : ∀ (i : (⟨2, ![n, c]⟩ : Shape).Idx) (q : D.contr.Idx), (D.lhsIdx i q 1).val = (q ⟨0, by omega⟩).val)
    (r0 : ∀ (i : (⟨2, ![n, c]⟩ : Shape).Idx) (q : D.contr.Idx), (D.rhsIdx i q 0).val = (q ⟨0, by omega⟩).val)
    (r1 : ∀ (i : (⟨2, ![n, c]⟩ : Shape).Idx) (q : D.contr.Idx), (D.rhsIdx i q 1).val = (i 1).val)
    (prec : Option ContractPrecision) (a : FVec Ideal ⟨2, ![n, k]⟩ φ₁) (W : FVec Ideal ⟨2, ![k, c]⟩ φ₂)
    (p : Fin n) (q : Fin c) :
    matmul D prec a W (constant ⟨2, ![n, c]⟩ .f32 0x00000000#32) (ix2 p q) = rowsMul (n := n) (k := k) (c := c) a W (ix2 p q) := by
  show FloatOps.matmul D prec a W (constant ⟨2, ![n, c]⟩ .f32 0x00000000#32) (ix2 p q) = _
  rw [Ideal.matmul_constant_zero_apply, ← Equiv.sum_comp (contrEquiv1 D k hr hs).symm]
  unfold rowsMul
  refine Finset.sum_congr rfl fun j _ => ?_
  have hk := contrEquiv1_symm_val D k hr hs j
  have el : D.lhsIdx (ix2 p q) ((contrEquiv1 D k hr hs).symm j) = ix2 p j := funext fun ax => Fin.ext (by
    match ax with
    | ⟨0, _⟩ => exact l0 _ _
    | ⟨1, _⟩ => exact (l1 _ _).trans hk)
  have er : D.rhsIdx (ix2 p q) ((contrEquiv1 D k hr hs).symm j) = ix2 j q := funext fun ax => Fin.ext (by
    match ax with
    | ⟨0, _⟩ => exact (r0 _ _).trans hk
    | ⟨1, _⟩ => exact r1 _ _)
  rw [el, er]
  rfl

end Cert.Sage

end
-- ==== Proof.KernelBlocks.lean ====
/-
  What each kernel body computes on one block of 5000 rows, at the extended reals.

  The first kernel's stored value is the folded layer of its five loaded blocks (5000 rows of aggregated
  features, the weights, and the bias, scale and shift as one-row arrays); the second kernel's is the
  linear head of the folded layer.  Changes of float format are the identity, a matrix product into a zero
  accumulator is the row–column sum, and a one-row array broadcast down the rows reads its one row.
-/
import proofs.«100313_j53463752900650_1_alg».proof.Proof.Gen.KernelIdeal.Skeleton
import proofs.«100313_j53463752900650_1_alg».proof.Proof.GinSpec
import proofs.«100313_j53463752900650_1_alg».proof.Proof.LibRowsDot
import Idealize.ShloMosaic.Lib.ValueLayout
import Idealize.ShloMosaic.Lib.Pipeline.Value

noncomputable section

namespace Cert.KernelIdeal.Blocks

open Cert.KernelIdeal Cert.KernelIdeal.Gen Idealize.ShloMosaic Idealize.ShloMosaic.ValueIdx Cert.Sage Cert.Gin
open scoped BigOperators

/-! ### The two matrix products' dimension numbers: rows of the left operand against columns of the right -/

theorem dotA_l0 (i : S5000x256.Idx) (q : dot_S5000x256_S256x256_S5000x256_1_0_0_1_n_n.contr.Idx) : (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem dotA_l1 (i : S5000x256.Idx) (q : dot_S5000x256_S256x256_S5000x256_1_0_0_1_n_n.contr.Idx) : (dot_S5000x256_S256x256_S5000x256_1_0_0_1_n_n.lhsIdx i q 1).val = (q ⟨0, by decide⟩).val :=
  dot_S5000x256_S256x256_S5000x256_1_0_0_1_n_n.lhsIdx_val_of_single rfl i q
theorem dotA_r0 (i : S5000x256.Idx) (q : dot_S5000x256_S256x256_S5000x256_1_0_0_1_n_n.contr.Idx) : (dot_S5000x256_S256x256_S5000x256_1_0_0_1_n_n.rhsIdx i q 0).val = (q ⟨0, by decide⟩).val :=
  dot_S5000x256_S256x256_S5000x256_1_0_0_1_n_n.rhsIdx_val_of_single rfl i q
theorem dotA_r1 (i : S5000x256.Idx) (q : dot_S5000x256_S256x256_S5000x256_1_0_0_1_n_n.contr.Idx) : (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

theorem dotB_l0 (i : S5000x2.Idx) (q : dot_S5000x256_S256x2_S5000x2_1_0_0_1_n_n.contr.Idx) : (dot_S5000x256_S256x2_S5000x2_1_0_0_1_n_n.lhsIdx i q 0).val = (i 0).val := by
  unfold DotDims.lhsIdx
  rw [dif_neg (show ¬(0 : Fin S5000x256.rank) ∈ dot_S5000x256_S256x2_S5000x2_1_0_0_1_n_n.lhsBatch by decide), dif_pos (show (0 : Fin S5000x256.rank) ∈ dot_S5000x256_S256x2_S5000x2_1_0_0_1_n_n.lhsNonContracting by decide)]
  rfl
theorem dotB_l1 (i : S5000x2.Idx) (q : dot_S5000x256_S256x2_S5000x2_1_0_0_1_n_n.contr.Idx) : (dot_S5000x256_S256x2_S5000x2_1_0_0_1_n_n.lhsIdx i q 1).val = (q ⟨0, by decide⟩).val :=
  dot_S5000x256_S256x2_S5000x2_1_0_0_1_n_n.lhsIdx_val_of_single rfl i q
theorem dotB_r0 (i : S5000x2.Idx) (q : dot_S5000x256_S256x2_S5000x2_1_0_0_1_n_n.contr.Idx) : (dot_S5000x256_S256x2_S5000x2_1_0_0_1_n_n.rhsIdx i q 0).val = (q ⟨0, by decide⟩).val :=
  dot_S5000x256_S256x2_S5000x2_1_0_0_1_n_n.rhsIdx_val_of_single rfl i q
theorem dotB_r1 (i : S5000x2.Idx) (q : dot_S5000x256_S256x2_S5000x2_1_0_0_1_n_n.contr.Idx) : (dot_S5000x256_S256x2_S5000x2_1_0_0_1_n_n.rhsIdx i q 1).val = (i 1).val := by
  unfold DotDims.rhsIdx
  rw [dif_neg (show ¬(1 : Fin S256x2.rank) ∈ dot_S5000x256_S256x2_S5000x2_1_0_0_1_n_n.rhsBatch by decide), dif_pos (show (1 : Fin S256x2.rank) ∈ dot_S5000x256_S256x2_S5000x2_1_0_0_1_n_n.rhsNonContracting by decide)]
  rfl

/-- The layer's matrix product at entry (p, q). -/
theorem matmulA_apply (a : FVec Ideal S5000x256 .bf16) (W : FVec Ideal S256x256 .bf16) (p : Fin 5000) (q : Fin 256) :
    matmul dot_S5000x256_S256x256_S5000x256_1_0_0_1_n_n none a W (constant S5000x256 .f32 0x00000000#32) (ix2 p q)
      = rowsMul (n := 5000) (k := 256) (c := 256) a W (ix2 p q) :=
  matmul_zero_rows dot_S5000x256_S256x256_S5000x256_1_0_0_1_n_n rfl rfl dotA_l0 dotA_l1 dotA_r0 dotA_r1 none a W p q

/-- The head's matrix product at entry (p, q). -/
theorem matmulB_apply (a : FVec Ideal S5000x256 .bf16) (W : FVec Ideal S256x2 .bf16) (p : Fin 5000) (q : Fin 2) :
    matmul dot_S5000x256_S256x2_S5000x2_1_0_0_1_n_n none a W (constant S5000x2 .f32 0x00000000#32) (ix2 p q)
      = rowsMul (n := 5000) (k := 256) (c := 2) a W (ix2 p q) :=
  matmul_zero_rows dot_S5000x256_S256x2_S5000x2_1_0_0_1_n_n rfl rfl dotB_l0 dotB_l1 dotB_r0 dotB_r1 none a W p q

/-- A one-row array, cast to its own shape and broadcast down 5000 rows, read at (p, q). -/
theorem rowA_apply (v : Vec Ideal S1x256 .f32) (p : Fin 5000) (q : Fin 256) :
    broadcastTo S5000x256 (shapeCast S1x256 v shapeCasts_S1x256_S1x256) broadcasts_S1x256_S5000x256 (ix2 p q)
      = v (ix2 (0 : Fin 1) q) := by
  rw [shapeCast_self]
  exact broadcastTo_1b_ab_apply v broadcasts_S1x256_S5000x256 p q

theorem rowB_apply (v : Vec Ideal S1x2 .f32) (p : Fin 5000) (q : Fin 2) :
    broadcastTo S5000x2 (shapeCast S1x2 v shapeCasts_S1x2_S1x2) broadcasts_S1x2_S5000x2 (ix2 p q)
      = v (ix2 (0 : Fin 1) q) := by
  rw [shapeCast_self]
  exact broadcastTo_1b_ab_apply v broadcasts_S1x2_S5000x2 p q

/-- The first kernel's stored block is the folded layer of its loaded blocks. -/
theorem pay0_eq (x0 : Vec Ideal S5000x256 .f32) (x1 : Vec Ideal S256x256 .f32) (x2 x3 x4 : Vec Ideal S1x256 .f32) :
    k0_pay1 (F := Ideal) x0 x1 x2 x3 x4 = foldedLayer (n := 5000) (k := 256) (c := 256) x0 x1 x2 x3 x4 := by
  funext j
  obtain ⟨p, q, rfl⟩ : ∃ (p : Fin 5000) (q : Fin 256), j = ix2 p q := ⟨j 0, j 1, eq_ix2 j⟩
  unfold k0_pay1 foldedLayer
  show max ((matmul (F := Ideal) dot_S5000x256_S256x256_S5000x256_1_0_0_1_n_n none _ _ (constant (F := Ideal) S5000x256 .f32 0x00000000#32) (ix2 p q)
      + broadcastTo S5000x256 (shapeCast S1x256 x2 shapeCasts_S1x256_S1x256) broadcasts_S1x256_S5000x256 (ix2 p q))
      * broadcastTo S5000x256 (shapeCast S1x256 x3 shapeCasts_S1x256_S1x256) broadcasts_S1x256_S5000x256 (ix2 p q)
      + broadcastTo S5000x256 (shapeCast S1x256 x4 shapeCasts_S1x256_S1x256) broadcasts_S1x256_S5000x256 (ix2 p q)) zeroF = _
  rw [matmulA_apply, rowA_apply, rowA_apply, rowA_apply, shapeCast_self]
  rfl

/-- The second kernel's stored block is the head of the folded layer of its loaded blocks. -/
theorem pay1_eq (x0 : Vec Ideal S5000x256 .f32) (x1 : Vec Ideal S256x256 .f32) (x2 x3 x4 : Vec Ideal S1x256 .f32)
    (x5 : Vec Ideal S256x2 .f32) (x6 : Vec Ideal S1x2 .f32) :
    k1_pay1 (F := Ideal) x0 x1 x2 x3 x4 x5 x6
      = headRow (n := 5000) (k := 256) (c := 2) (foldedLayer (n := 5000) (k := 256) (c := 256) x0 x1 x2 x3 x4) x5 x6 := by
  funext j
  obtain ⟨p, q, rfl⟩ : ∃ (p : Fin 5000) (q : Fin 2), j = ix2 p q := ⟨j 0, j 1, eq_ix2 j⟩
  rw [← pay0_eq]
  unfold k1_pay1 headRow
  show matmul (F := Ideal) dot_S5000x256_S256x2_S5000x2_1_0_0_1_n_n none _ _ (constant (F := Ideal) S5000x2 .f32 0x00000000#32) (ix2 p q)
      + broadcastTo S5000x2 (shapeCast S1x2 x6 shapeCasts_S1x2_S1x2) broadcasts_S1x2_S5000x2 (ix2 p q) = _
  rw [matmulB_apply, rowB_apply]
  rfl

end Cert.KernelIdeal.Blocks

end
-- ==== Proof.KernelArrays.lean ====
/-
  Each call's result array as one function of the arrays the call finds.

  A call runs its body at ten grid points; point t reads rows 5000·t … 5000·t + 4999 of the aggregated
  features and the whole of every parameter array, and writes the same rows of the result.  The body's value
  on a block of rows is the folded layer (first call) or the head of the folded layer (second call) of that
  block; both depend on a row of the row operand only, so block t of the result is block t of the same
  function of the WHOLE arrays, and the ten blocks tile the result.
-/
import proofs.«100313_j53463752900650_1_alg».proof.Proof.Gen.KernelIdeal.Frame
import proofs.«100313_j53463752900650_1_alg».proof.Proof.KernelBlocks
import Idealize.ShloMosaic.Lib.Pipeline.Value

set_option maxRecDepth 16384

noncomputable section

namespace Cert.KernelIdeal.Arrays

open Cert.KernelIdeal Cert.KernelIdeal.Gen Cert.KernelIdeal.Blocks
open Idealize.ShloMosaic Idealize.ShloMosaic.TcCoe Idealize.ShloMosaic.ValueIdx Idealize.SL.Sem
open Idealize.ShloMosaic.Pipeline (Dat Cfg Window)
open Cert.Sage Cert.Gin

-- the TensorCore's buffer contents when a call is entered
variable (V : (c : Dev nD) → (b : Ref sig .tc) → Buf (Elt Ideal) ((c : Thread nD τ).loc b))

theorem hz : (![0, 0] : Fin 2 → Nat) = fun _ => 0 := funext fun a => by fin_cases a <;> rfl

/-! ## The first call -/

/-- The printed index maps over the ten grid points: the row-block windows (the aggregated rows in, the result
    out) sit at block (t, 0); every other window is its whole array, block (0, 0). -/
theorem idx0 : ∀ t : Fin cfg0.N, win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Window 1 of call 0 is its whole array at every point. -/
theorem blk0_1 (c : Dev nD) (t : Fin cfg0.N) : iblk0 V c 1 t = V c main_arg2 := by
  funext y
  show V c main_arg2 (((cfg0.win 1).blk t).view.emb y) = V c main_arg2 y
  refine congrArg _ (funext fun a => Fin.ext ?_)
  have e := idx0 t
  match a with
  | ⟨0, _⟩ => show win0_1.index t (0 : Fin 2) * 256 + 1 * (y 0).val = (y 0).val; omega
  | ⟨1, _⟩ => show win0_1.index t (1 : Fin 2) * 256 + 1 * (y 1).val = (y 1).val; omega

/-- Window 2 of call 0 is its whole array at every point. -/
theorem blk0_2 (c : Dev nD) (t : Fin cfg0.N) : iblk0 V c 2 t = V c main_v27 := by
  funext y
  show V c main_v27 (((cfg0.win 2).blk t).view.emb y) = V c main_v27 y
  refine congrArg _ (funext fun a => Fin.ext ?_)
  have e := idx0 t
  match a with
  | ⟨0, _⟩ => show win0_2.index t (0 : Fin 2) * 1 + 1 * (y 0).val = (y 0).val; omega
  | ⟨1, _⟩ => show win0_2.index t (1 : Fin 2) * 256 + 1 * (y 1).val = (y 1).val; omega

/-- Window 3 of call 0 is its whole array at every point. -/
theorem blk0_3 (c : Dev nD) (t : Fin cfg0.N) : iblk0 V c 3 t = V c main_v28 := by
  funext y
  show V c main_v28 (((cfg0.win 3).blk t).view.emb y) = V c main_v28 y
  refine congrArg _ (funext fun a => Fin.ext ?_)
  have e := idx0 t
  match a with
  | ⟨0, _⟩ => show win0_3.index t (0 : Fin 2) * 1 + 1 * (y 0).val = (y 0).val; omega
  | ⟨1, _⟩ => show win0_3.index t (1 : Fin 2) * 256 + 1 * (y 1).val = (y 1).val; omega

/-- Window 4 of call 0 is its whole array at every point. -/
theorem blk0_4 (c : Dev nD) (t : Fin cfg0.N) : iblk0 V c 4 t = V c main_v29 := by
  funext y
  show V c main_v29 (((cfg0.win 4).blk t).view.emb y) = V c main_v29 y
  refine congrArg _ (funext fun a => Fin.ext ?_)
  have e := idx0 t
  match a with
  | ⟨0, _⟩ => show win0_4.index t (0 : Fin 2) * 1 + 1 * (y 0).val = (y 0).val; omega
  | ⟨1, _⟩ => show win0_4.index t (1 : Fin 2) * 256 + 1 * (y 1).val = (y 1).val; omega

/-- The first call's result as a function of the arrays it finds. -/
abbrev G0 (c : Dev nD) : S50000x256.Idx → EReal :=
  foldedLayer (n := 50000) (k := 256) (c := 256) (V c main_v26) (V c main_arg2) (V c main_v27) (V c main_v28) (V c main_v29)

/-- What point `t` of the first call writes back is block `t` of `G0`. -/
theorem flushed0_eq (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz]
  simp only [View.ld_unit_zero (S := S5000x256) hz, View.ld_unit_zero (S := S256x256) hz, View.ld_unit_zero (S := S1x256) hz]
  rw [pay0_eq, blk0_1, blk0_2, blk0_3, blk0_4]
  have e := idx0 t
  funext j
  show foldedLayer (n := 5000) (k := 256) (c := 256) (iblk0 V c 0 t) (V c main_arg2) (V c main_v27) (V c main_v28) (V c main_v29) j
    = foldedLayer (n := 50000) (k := 256) (c := 256) (V c main_v26) (V c main_arg2) (V c main_v27) (V c main_v28) (V c main_v29) (((cfg0.win 5).blk t).view.emb j)
  refine (foldedLayer_rows (N := 50000) (n := 5000) (V c main_v26) (iblk0 V c 0 t) (V c main_arg2) (V c main_v27) (V c main_v28) (V c main_v29)
    (((cfg0.win 5).blk t).view.emb j) j ?_ ?_).symm
  · show win0_5.index t (1 : Fin 2) * 256 + 1 * (j 1).val = (j 1).val
    omega
  · intro q
    show V c main_v26 _ = V c main_v26 (((cfg0.win 0).blk t).view.emb (ix2 (rowOf j) q))
    refine congrArg _ (funext fun a => Fin.ext ?_)
    match a with
    | ⟨0, _⟩ => show win0_5.index t (0 : Fin 2) * 5000 + 1 * (j 0).val = win0_0.index t (0 : Fin 2) * 5000 + 1 * (j 0).val; omega
    | ⟨1, _⟩ => show q.val = win0_0.index t (1 : Fin 2) * 256 + 1 * q.val; omega

/-- An index of the result is in point `t`'s block iff each coordinate is in the block's range. -/
theorem mem_blk0 (t : Fin cfg0.N) (i : S50000x256.Idx) :
    i ∈ ((cfg0.win 5).blk t).view.set ↔ ∀ a : Fin 2, win0_5.index t a * S5000x256.size a ≤ (i a).val ∧ (i a).val < win0_5.index t a * S5000x256.size a + S5000x256.size a := by
  show i ∈ ((View.whole main_v30).slice (win0_5.rect t)).set ↔ _
  rw [View.set_slice_whole, Rect.mem_set_unit]
  exact Iff.rfl

/-- The ten blocks tile the result: row r is in the block of point r / 5000. -/
theorem cover0 (i : S50000x256.Idx) : ∃ t : Fin cfg0.N, (cfg0.win 5).flush t = true ∧ i ∈ ((cfg0.win 5).blk t).view.set := by
  have hi0 : (i 0).val < 50000 := (i 0).isLt
  have hi1 : (i 1).val < 256 := (i 1).isLt
  have hN : (i 0).val / 5000 < grid0.N := by rw [N_0]; omega
  refine ⟨⟨(i 0).val / 5000, hN⟩, flush0_5 _, ?_⟩
  rw [mem_blk0]
  obtain ⟨-, -, e2, e3, -⟩ := idx0 ⟨(i 0).val / 5000, hN⟩
  have e2' : win0_5.index ⟨(i 0).val / 5000, hN⟩ (0 : Fin 2) = (i 0).val / 5000 := e2
  intro a
  match a with
  | ⟨0, _⟩ => show win0_5.index ⟨(i 0).val / 5000, hN⟩ (0 : Fin 2) * 5000 ≤ (i 0).val ∧ (i 0).val < win0_5.index ⟨(i 0).val / 5000, hN⟩ (0 : Fin 2) * 5000 + 5000; omega
  | ⟨1, _⟩ => show win0_5.index ⟨(i 0).val / 5000, hN⟩ (1 : Fin 2) * 256 ≤ (i 1).val ∧ (i 1).val < win0_5.index ⟨(i 0).val / 5000, hN⟩ (1 : Fin 2) * 256 + 256; omega

/-- The first call's result array after the call. -/
theorem final0 (c : Dev nD) : (dat0 V c).arrAt 5 cfg0.N = G0 V c :=
  (dat0 V c).arrAt_eq_of_cover 5 (G0 V c) (fun t _ => flushed0_eq V c t) (cover0)

/-! ## The second call -/

/-- The printed index maps over the ten grid points: the row-block windows (the aggregated rows in, the result
    out) sit at block (t, 0); every other window is its whole array, block (0, 0). -/
theorem idx1 : ∀ t : Fin cfg1.N, win1_0.index t (0 : Fin 2) = t.val ∧ win1_0.index t (1 : Fin 2) = 0
    ∧ win1_7.index t (0 : Fin 2) = t.val ∧ win1_7.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- Window 1 of call 1 is its whole array at every point. -/
theorem blk1_1 (c : Dev nD) (t : Fin cfg1.N) : iblk1 V c 1 t = V c main_arg8 := by
  funext y
  show V c main_arg8 (((cfg1.win 1).blk t).view.emb y) = V c main_arg8 y
  refine congrArg _ (funext fun a => Fin.ext ?_)
  have e := idx1 t
  match a with
  | ⟨0, _⟩ => show win1_1.index t (0 : Fin 2) * 256 + 1 * (y 0).val = (y 0).val; omega
  | ⟨1, _⟩ => show win1_1.index t (1 : Fin 2) * 256 + 1 * (y 1).val = (y 1).val; omega

/-- Window 2 of call 1 is its whole array at every point. -/
theorem blk1_2 (c : Dev nD) (t : Fin cfg1.N) : iblk1 V c 2 t = V c main_v42 := by
  funext y
  show V c main_v42 (((cfg1.win 2).blk t).view.emb y) = V c main_v42 y
  refine congrArg _ (funext fun a => Fin.ext ?_)
  have e := idx1 t
  match a with
  | ⟨0, _⟩ => show win1_2.index t (0 : Fin 2) * 1 + 1 * (y 0).val = (y 0).val; omega
  | ⟨1, _⟩ => show win1_2.index t (1 : Fin 2) * 256 + 1 * (y 1).val = (y 1).val; omega

/-- Window 3 of call 1 is its whole array at every point. -/
theorem blk1_3 (c : Dev nD) (t : Fin cfg1.N) : iblk1 V c 3 t = V c main_v43 := by
  funext y
  show V c main_v43 (((cfg1.win 3).blk t).view.emb y) = V c main_v43 y
  refine congrArg _ (funext fun a => Fin.ext ?_)
  have e := idx1 t
  match a with
  | ⟨0, _⟩ => show win1_3.index t (0 : Fin 2) * 1 + 1 * (y 0).val = (y 0).val; omega
  | ⟨1, _⟩ => show win1_3.index t (1 : Fin 2) * 256 + 1 * (y 1).val = (y 1).val; omega

/-- Window 4 of call 1 is its whole array at every point. -/
theorem blk1_4 (c : Dev nD) (t : Fin cfg1.N) : iblk1 V c 4 t = V c main_v44 := by
  funext y
  show V c main_v44 (((cfg1.win 4).blk t).view.emb y) = V c main_v44 y
  refine congrArg _ (funext fun a => Fin.ext ?_)
  have e := idx1 t
  match a with
  | ⟨0, _⟩ => show win1_4.index t (0 : Fin 2) * 1 + 1 * (y 0).val = (y 0).val; omega
  | ⟨1, _⟩ => show win1_4.index t (1 : Fin 2) * 256 + 1 * (y 1).val = (y 1).val; omega

/-- Window 5 of call 1 is its whole array at every point. -/
theorem blk1_5 (c : Dev nD) (t : Fin cfg1.N) : iblk1 V c 5 t = V c main_arg14 := by
  funext y
  show V c main_arg14 (((cfg1.win 5).blk t).view.emb y) = V c main_arg14 y
  refine congrArg _ (funext fun a => Fin.ext ?_)
  have e := idx1 t
  match a with
  | ⟨0, _⟩ => show win1_5.index t (0 : Fin 2) * 256 + 1 * (y 0).val = (y 0).val; omega
  | ⟨1, _⟩ => show win1_5.index t (1 : Fin 2) * 2 + 1 * (y 1).val = (y 1).val; omega

/-- Window 6 of call 1 is its whole array at every point. -/
theorem blk1_6 (c : Dev nD) (t : Fin cfg1.N) : iblk1 V c 6 t = V c main_v45 := by
  funext y
  show V c main_v45 (((cfg1.win 6).blk t).view.emb y) = V c main_v45 y
  refine congrArg _ (funext fun a => Fin.ext ?_)
  have e := idx1 t
  match a with
  | ⟨0, _⟩ => show win1_6.index t (0 : Fin 2) * 1 + 1 * (y 0).val = (y 0).val; omega
  | ⟨1, _⟩ => show win1_6.index t (1 : Fin 2) * 2 + 1 * (y 1).val = (y 1).val; omega

/-- The second call's result as a function of the arrays it finds. -/
abbrev G1 (c : Dev nD) : S50000x2.Idx → EReal :=
  headRow (n := 50000) (k := 256) (c := 2)
    (foldedLayer (n := 50000) (k := 256) (c := 256) (V c main_v41) (V c main_arg8) (V c main_v42) (V c main_v43) (V c main_v44))
    (V c main_arg14) (V c main_v45)

/-- What point `t` of the second call writes back is block `t` of `G1`. -/
theorem flushed1_eq (c : Dev nD) (t : Fin cfg1.N) :
    (dat1 V c).flushed 7 t = ((cfg1.win 7).blk t).view.read (Elt Ideal) (G1 V c) := by
  show (cfg1.win 7).cut (grid1.coords t) ((dat1 V c).after 7 t) = _
  rw [after1_7]
  unfold out1_7
  rw [View.canon_unit_zero hz]
  simp only [View.ld_unit_zero (S := S5000x256) hz, View.ld_unit_zero (S := S256x256) hz, View.ld_unit_zero (S := S1x256) hz,
    View.ld_unit_zero (S := S256x2) hz, View.ld_unit_zero (S := S1x2) hz]
  rw [pay1_eq, blk1_1, blk1_2, blk1_3, blk1_4, blk1_5, blk1_6]
  have e := idx1 t
  funext j
  show headRow (n := 5000) (k := 256) (c := 2) (foldedLayer (n := 5000) (k := 256) (c := 256) (iblk1 V c 0 t) (V c main_arg8) (V c main_v42) (V c main_v43) (V c main_v44)) (V c main_arg14) (V c main_v45) j
    = headRow (n := 50000) (k := 256) (c := 2) (foldedLayer (n := 50000) (k := 256) (c := 256) (V c main_v41) (V c main_arg8) (V c main_v42) (V c main_v43) (V c main_v44)) (V c main_arg14) (V c main_v45) (((cfg1.win 7).blk t).view.emb j)
  refine (headRow_rows (N := 50000) (n := 5000) _ _ (V c main_arg14) (V c main_v45) (((cfg1.win 7).blk t).view.emb j) j ?_ ?_).symm
  · show win1_7.index t (1 : Fin 2) * 2 + 1 * (j 1).val = (j 1).val
    omega
  · intro q
    refine foldedLayer_rows (N := 50000) (n := 5000) (V c main_v41) (iblk1 V c 0 t) (V c main_arg8) (V c main_v42) (V c main_v43) (V c main_v44) _ _ rfl ?_
    intro q'
    show V c main_v41 _ = V c main_v41 (((cfg1.win 0).blk t).view.emb (ix2 (rowOf j) q'))
    refine congrArg _ (funext fun a => Fin.ext ?_)
    match a with
    | ⟨0, _⟩ => show win1_7.index t (0 : Fin 2) * 5000 + 1 * (j 0).val = win1_0.index t (0 : Fin 2) * 5000 + 1 * (j 0).val; omega
    | ⟨1, _⟩ => show q'.val = win1_0.index t (1 : Fin 2) * 256 + 1 * q'.val; omega

theorem mem_blk1 (t : Fin cfg1.N) (i : S50000x2.Idx) :
    i ∈ ((cfg1.win 7).blk t).view.set ↔ ∀ a : Fin 2, win1_7.index t a * S5000x2.size a ≤ (i a).val ∧ (i a).val < win1_7.index t a * S5000x2.size a + S5000x2.size a := by
  show i ∈ ((View.whole main_v46).slice (win1_7.rect t)).set ↔ _
  rw [View.set_slice_whole, Rect.mem_set_unit]
  exact Iff.rfl

theorem cover1 (i : S50000x2.Idx) : ∃ t : Fin cfg1.N, (cfg1.win 7).flush t = true ∧ i ∈ ((cfg1.win 7).blk t).view.set := by
  have hi0 : (i 0).val < 50000 := (i 0).isLt
  have hi1 : (i 1).val < 2 := (i 1).isLt
  have hN : (i 0).val / 5000 < grid1.N := by rw [N_1]; omega
  refine ⟨⟨(i 0).val / 5000, hN⟩, flush1_7 _, ?_⟩
  rw [mem_blk1]
  obtain ⟨-, -, e2, e3, -⟩ := idx1 ⟨(i 0).val / 5000, hN⟩
  have e2' : win1_7.index ⟨(i 0).val / 5000, hN⟩ (0 : Fin 2) = (i 0).val / 5000 := e2
  intro a
  match a with
  | ⟨0, _⟩ => show win1_7.index ⟨(i 0).val / 5000, hN⟩ (0 : Fin 2) * 5000 ≤ (i 0).val ∧ (i 0).val < win1_7.index ⟨(i 0).val / 5000, hN⟩ (0 : Fin 2) * 5000 + 5000; omega
  | ⟨1, _⟩ => show win1_7.index ⟨(i 0).val / 5000, hN⟩ (1 : Fin 2) * 2 ≤ (i 1).val ∧ (i 1).val < win1_7.index ⟨(i 0).val / 5000, hN⟩ (1 : Fin 2) * 2 + 2; omega

/-- The second call's result array after the call. -/
theorem final1 (c : Dev nD) : (dat1 V c).arrAt 7 cfg1.N = G1 V c :=
  (dat1 V c).arrAt_eq_of_cover 7 (G1 V c) (fun t _ => flushed1_eq V c t) (cover1)

end Cert.KernelIdeal.Arrays

end
-- ==== Proof.KernelValue.lean ====
/-
  The idealized kernel's result array as one function of the argument arrays.

  Following the buffers through @main: the host operations before the first call compute the aggregated
  input rows, the folded scales `g · (v + ε)^(−1/2)` and shifts `β − m · scale` of both layers, and the
  one-row casts of the biases; the first call leaves the first layer's activations; the host operations
  between the calls aggregate those; the second call leaves the result.
-/
import proofs.«100313_j53463752900650_1_alg».proof.Proof.KernelRun
import proofs.«100313_j53463752900650_1_alg».proof.Proof.KernelArrays
import Idealize.ShloMosaic.Lib.StableHlo.Run

set_option maxRecDepth 16384
-- reading one buffer through a stretch of some forty host operations is one long simplification
set_option maxHeartbeats 4000000

noncomputable section

namespace Cert.KernelIdeal.Named

open Cert.KernelIdeal Cert.KernelIdeal.Gen Cert.KernelIdeal.Arrays
open Idealize.ShloMosaic Idealize.ShloMosaic.TcCoe Idealize.ShloMosaic.ValueIdx Idealize.SL.Sem Idealize.ShloMosaic.StableHlo
open Cert.Sage Cert.Gin

/-- A node's own row plus the sum of the rows of its in-neighbours: the rows `Y[src]` gathered (a negative
    source index counted from the end), scattered by addition into a zero array at the destination indices. -/
def aggOf (Y : FVec Ideal S50000x256 .f32) (src dst : IVec S800000 32) : FVec Ideal S50000x256 .f32 :=
  addf Y (Host.scatterAdd scatter_S50000x256_S800000x1_S800000x256_1_0_0_1
    (broadcastInDim S50000x256 ![] bcast_S_S50000x256 (constant (F := Ideal) S_ .f32 0x00000000#32))
    (broadcastInDim S800000x1 ![0] bcast_S800000_S800000x1_0 dst)
    (Host.gather gather_S50000x256_S800000x1_S800000x256_1_0_n_n_0_1_1256 Y
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src))))

/-- Row `r` of the edge array, as a vector of 800000 indices. -/
def edgeRow0 (E : IVec S2x800000 32) : IVec S800000 32 :=
  shapeCast S800000 (extractStridedSlice S1x800000 ![0, 0] E slices_S2x800000_S1x800000_0_0) shapeCasts_S1x800000_S800000
def edgeRow1 (E : IVec S2x800000 32) : IVec S800000 32 :=
  shapeCast S800000 (extractStridedSlice S1x800000 ![1, 0] E slices_S2x800000_S1x800000_1_0) shapeCasts_S1x800000_S800000

/-- The aggregation over the edge array. -/
def aggK (Y : FVec Ideal S50000x256 .f32) (E : IVec S2x800000 32) : FVec Ideal S50000x256 .f32 :=
  aggOf Y (edgeRow0 E) (edgeRow1 E)

/-- The folded scale of a layer: `g · (v + ε)^(−1/2)`. -/
def scaleOf (g v : FVec Ideal S256 .f32) : FVec Ideal S256 .f32 :=
  mulf g (Host.rsqrt (addf v (broadcastInDim S256 ![] bcast_S_S256 (constant (F := Ideal) S_ .f32 0x3727C5AC#32))))
/-- The folded shift of a layer: `β − m · scale`. -/
def shiftOf (be mu g v : FVec Ideal S256 .f32) : FVec Ideal S256 .f32 :=
  subf be (mulf mu (scaleOf g v))
/-- A vector as a one-row array. -/
abbrev asRow (x : FVec Ideal S256 .f32) : FVec Ideal S1x256 .f32 := shapeCast S1x256 x shapeCasts_S256_S1x256
abbrev asRow2 (x : FVec Ideal S2 .f32) : FVec Ideal S1x2 .f32 := shapeCast S1x2 x shapeCasts_S2_S1x2

variable (m : (ℓ : Loc nD τ sig) → Buf (Elt Ideal) ℓ) (ρ : Dev nD → PrngReg)

/-! ### What the first call finds -/

theorem V1_v26 (c : Dev nD) : (V1 m ρ c main_v26 : S50000x256.Idx → EReal) = aggK (m ((c : Thread nD τ).loc main_arg0)) (m ((c : Thread nD τ).loc main_arg1)) := by
  dsimp only [V1, W1, hostOps0]; after_results_simp <;> rfl
theorem V1_arg2 (c : Dev nD) : (V1 m ρ c main_arg2 : S256x256.Idx → EReal) = m ((c : Thread nD τ).loc main_arg2) := by
  dsimp only [V1, W1, hostOps0]; after_results_simp <;> rfl
theorem V1_v27 (c : Dev nD) : (V1 m ρ c main_v27 : S1x256.Idx → EReal) = asRow (m ((c : Thread nD τ).loc main_arg3)) := by
  dsimp only [V1, W1, hostOps0]; after_results_simp <;> rfl
theorem V1_v28 (c : Dev nD) : (V1 m ρ c main_v28 : S1x256.Idx → EReal) = asRow (scaleOf (m ((c : Thread nD τ).loc main_arg4)) (m ((c : Thread nD τ).loc main_arg7))) := by
  dsimp only [V1, W1, hostOps0]; after_results_simp <;> rfl
theorem V1_v29 (c : Dev nD) : (V1 m ρ c main_v29 : S1x256.Idx → EReal) = asRow (shiftOf (m ((c : Thread nD τ).loc main_arg5)) (m ((c : Thread nD τ).loc main_arg6)) (m ((c : Thread nD τ).loc main_arg4)) (m ((c : Thread nD τ).loc main_arg7))) := by
  dsimp only [V1, W1, hostOps0]; after_results_simp <;> rfl

/-- The first layer's activations, as the first call leaves them. -/
def act1 (c : Dev nD) : S50000x256.Idx → EReal :=
  foldedLayer (n := 50000) (k := 256) (c := 256) (aggK (m ((c : Thread nD τ).loc main_arg0)) (m ((c : Thread nD τ).loc main_arg1))) (m ((c : Thread nD τ).loc main_arg2)) (asRow (m ((c : Thread nD τ).loc main_arg3)))
    (asRow (scaleOf (m ((c : Thread nD τ).loc main_arg4)) (m ((c : Thread nD τ).loc main_arg7)))) (asRow (shiftOf (m ((c : Thread nD τ).loc main_arg5)) (m ((c : Thread nD τ).loc main_arg6)) (m ((c : Thread nD τ).loc main_arg4)) (m ((c : Thread nD τ).loc main_arg7))))

theorem W2_v30 (c : Dev nD) : (W2 m ρ c (Proc.devRef .tc main_v30) : S50000x256.Idx → EReal) = act1 m c := by
  refine (W2_arr m ρ c 5).trans ((final0 (V1 m ρ) c).trans ?_)
  unfold act1
  rw [← V1_v26 m ρ c, ← V1_arg2 m ρ c, ← V1_v27 m ρ c, ← V1_v28 m ρ c, ← V1_v29 m ρ c]

/-! ### What the second call finds: buffers the first stretch wrote, read past the first call -/

theorem W2_v1 (c : Dev nD) : (W2 m ρ c (Proc.devRef .tc main_v1) : S800000.Idx → BitVec 32) = edgeRow0 (m ((c : Thread nD τ).loc main_arg1)) := by
  refine (W2_of_ne m ρ c main_v1 (by decide)).trans ?_
  dsimp only [W1, hostOps0]; after_results_simp <;> rfl
theorem W2_v3 (c : Dev nD) : (W2 m ρ c (Proc.devRef .tc main_v3) : S800000.Idx → BitVec 32) = edgeRow1 (m ((c : Thread nD τ).loc main_arg1)) := by
  refine (W2_of_ne m ρ c main_v3 (by decide)).trans ?_
  dsimp only [W1, hostOps0]; after_results_simp <;> rfl
theorem W2_v13 (c : Dev nD) : (W2 m ρ c (Proc.devRef .tc main_v13) : S256.Idx → EReal) = scaleOf (m ((c : Thread nD τ).loc main_arg10)) (m ((c : Thread nD τ).loc main_arg13)) := by
  refine (W2_of_ne m ρ c main_v13 (by decide)).trans ?_
  dsimp only [W1, hostOps0]; after_results_simp <;> rfl
theorem W2_v15 (c : Dev nD) : (W2 m ρ c (Proc.devRef .tc main_v15) : S256.Idx → EReal) = shiftOf (m ((c : Thread nD τ).loc main_arg11)) (m ((c : Thread nD τ).loc main_arg12)) (m ((c : Thread nD τ).loc main_arg10)) (m ((c : Thread nD τ).loc main_arg13)) := by
  refine (W2_of_ne m ρ c main_v15 (by decide)).trans ?_
  dsimp only [W1, hostOps0]; after_results_simp <;> rfl
theorem W2_arg8 (c : Dev nD) : (W2 m ρ c (Proc.devRef .tc main_arg8) : S256x256.Idx → EReal) = m ((c : Thread nD τ).loc main_arg8) := by
  refine (W2_of_ne m ρ c main_arg8 (by decide)).trans ?_
  dsimp only [W1, hostOps0]; after_results_simp <;> rfl
theorem W2_arg9 (c : Dev nD) : (W2 m ρ c (Proc.devRef .tc main_arg9) : S256.Idx → EReal) = m ((c : Thread nD τ).loc main_arg9) := by
  refine (W2_of_ne m ρ c main_arg9 (by decide)).trans ?_
  dsimp only [W1, hostOps0]; after_results_simp <;> rfl
theorem W2_arg14 (c : Dev nD) : (W2 m ρ c (Proc.devRef .tc main_arg14) : S256x2.Idx → EReal) = m ((c : Thread nD τ).loc main_arg14) := by
  refine (W2_of_ne m ρ c main_arg14 (by decide)).trans ?_
  dsimp only [W1, hostOps0]; after_results_simp <;> rfl
theorem W2_arg15 (c : Dev nD) : (W2 m ρ c (Proc.devRef .tc main_arg15) : S2.Idx → EReal) = m ((c : Thread nD τ).loc main_arg15) := by
  refine (W2_of_ne m ρ c main_arg15 (by decide)).trans ?_
  dsimp only [W1, hostOps0]; after_results_simp <;> rfl

theorem V3_v41 (c : Dev nD) : (V3 m ρ c main_v41 : S50000x256.Idx → EReal) = aggK (act1 m c) (m ((c : Thread nD τ).loc main_arg1)) := by
  have e : (V3 m ρ c main_v41 : S50000x256.Idx → EReal)
      = aggOf (W2 m ρ c (Proc.devRef .tc main_v30)) (W2 m ρ c (Proc.devRef .tc main_v1)) (W2 m ρ c (Proc.devRef .tc main_v3)) := by
    dsimp only [V3, W3, hostOps1]; after_results_simp <;> rfl
  rw [e, W2_v30, W2_v1, W2_v3]; rfl
theorem V3_arg8 (c : Dev nD) : (V3 m ρ c main_arg8 : S256x256.Idx → EReal) = m ((c : Thread nD τ).loc main_arg8) := by
  have e : (V3 m ρ c main_arg8 : S256x256.Idx → EReal) = W2 m ρ c (Proc.devRef .tc main_arg8) := by
    dsimp only [V3, W3, hostOps1]; after_results_simp <;> rfl
  rw [e, W2_arg8]
theorem V3_v42 (c : Dev nD) : (V3 m ρ c main_v42 : S1x256.Idx → EReal) = asRow (m ((c : Thread nD τ).loc main_arg9)) := by
  have e : (V3 m ρ c main_v42 : S1x256.Idx → EReal) = asRow (W2 m ρ c (Proc.devRef .tc main_arg9)) := by
    dsimp only [V3, W3, hostOps1]; after_results_simp <;> rfl
  rw [e, W2_arg9]
theorem V3_v43 (c : Dev nD) : (V3 m ρ c main_v43 : S1x256.Idx → EReal) = asRow (scaleOf (m ((c : Thread nD τ).loc main_arg10)) (m ((c : Thread nD τ).loc main_arg13))) := by
  have e : (V3 m ρ c main_v43 : S1x256.Idx → EReal) = asRow (W2 m ρ c (Proc.devRef .tc main_v13)) := by
    dsimp only [V3, W3, hostOps1]; after_results_simp <;> rfl
  rw [e, W2_v13]
theorem V3_v44 (c : Dev nD) : (V3 m ρ c main_v44 : S1x256.Idx → EReal) = asRow (shiftOf (m ((c : Thread nD τ).loc main_arg11)) (m ((c : Thread nD τ).loc main_arg12)) (m ((c : Thread nD τ).loc main_arg10)) (m ((c : Thread nD τ).loc main_arg13))) := by
  have e : (V3 m ρ c main_v44 : S1x256.Idx → EReal) = asRow (W2 m ρ c (Proc.devRef .tc main_v15)) := by
    dsimp only [V3, W3, hostOps1]; after_results_simp <;> rfl
  rw [e, W2_v15]
theorem V3_arg14 (c : Dev nD) : (V3 m ρ c main_arg14 : S256x2.Idx → EReal) = m ((c : Thread nD τ).loc main_arg14) := by
  have e : (V3 m ρ c main_arg14 : S256x2.Idx → EReal) = W2 m ρ c (Proc.devRef .tc main_arg14) := by
    dsimp only [V3, W3, hostOps1]; after_results_simp <;> rfl
  rw [e, W2_arg14]
theorem V3_v45 (c : Dev nD) : (V3 m ρ c main_v45 : S1x2.Idx → EReal) = asRow2 (m ((c : Thread nD τ).loc main_arg15)) := by
  have e : (V3 m ρ c main_v45 : S1x2.Idx → EReal) = asRow2 (W2 m ρ c (Proc.devRef .tc main_arg15)) := by
    dsimp only [V3, W3, hostOps1]; after_results_simp <;> rfl
  rw [e, W2_arg15]

/-- The kernel program's result as a function of its arguments. -/
def resK (c : Dev nD) : S50000x2.Idx → EReal :=
  headRow (n := 50000) (k := 256) (c := 2)
    (foldedLayer (n := 50000) (k := 256) (c := 256) (aggK (act1 m c) (m ((c : Thread nD τ).loc main_arg1))) (m ((c : Thread nD τ).loc main_arg8)) (asRow (m ((c : Thread nD τ).loc main_arg9)))
      (asRow (scaleOf (m ((c : Thread nD τ).loc main_arg10)) (m ((c : Thread nD τ).loc main_arg13)))) (asRow (shiftOf (m ((c : Thread nD τ).loc main_arg11)) (m ((c : Thread nD τ).loc main_arg12)) (m ((c : Thread nD τ).loc main_arg10)) (m ((c : Thread nD τ).loc main_arg13)))))
    (m ((c : Thread nD τ).loc main_arg14)) (asRow2 (m ((c : Thread nD τ).loc main_arg15)))

/-- The result array ends at `resK`. -/
theorem W4_v46 (c : Dev nD) : (W4 m ρ c (Proc.devRef .tc main_v46) : S50000x2.Idx → EReal) = resK m c := by
  refine (W4_arr m ρ c 7).trans ((final1 (V3 m ρ) c).trans ?_)
  unfold resK
  rw [← V3_v41 m ρ c, ← V3_arg8 m ρ c, ← V3_v42 m ρ c, ← V3_v43 m ρ c, ← V3_v44 m ρ c, ← V3_arg14 m ρ c, ← V3_v45 m ρ c]

/-- THE KERNEL'S RUN: every weakly fair execution terminates, the result array at `resK` of the arguments,
    the arguments unchanged. -/
theorem run_value : θ_run defs (onTc (τ := τ) (main (F := Ideal))) ⟨m, fun _ => 0, ρ⟩ (fun r => ∀ c : Dev nD,
      r.2.mem ((c.tc : Thread nD τ).loc main_v46) = resK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c _ (mem_uc main_v46 (by decide))).trans (W4_v46 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c),
     (h c _ (mem_uc main_arg12 (by decide))).trans (W4_main_arg12 m ρ c),
     (h c _ (mem_uc main_arg13 (by decide))).trans (W4_main_arg13 m ρ c),
     (h c _ (mem_uc main_arg14 (by decide))).trans (W4_main_arg14 m ρ c),
     (h c _ (mem_uc main_arg15 (by decide))).trans (W4_main_arg15 m ρ c)⟩)
    (run_all m ρ)

end Cert.KernelIdeal.Named

end
-- ==== Proof.LibFiniteOps.lean ====
/-
  Real-valuedness through the array operations of a tensor program, read at the extended reals.

  For each operation: if every entry of each float operand is real (`Cert.LibFinite.AllReal`), so is
  every entry of the result.  The operations are those of the Idealize library
  (`Idealize.ShloMosaic`), at the ideal instance `Ideal` (floats are extended reals, exact):

  * elementwise: `constant`, `addf`, `subf`, `mulf`, `maximumf`, `minimumf`, `negf`, `divf` /
    `Host.divf` (divisor nonzero), `rsqrt` / `Host.rsqrt` (argument positive), `sitofp`, `select`,
    `extf` / `truncf` (the identity);
  * re-indexings — every entry of the result is an entry of the operand: `broadcast`, `broadcastTo`,
    `broadcastInDim`, `shapeCast`, `extractStridedSlice`, `Host.slice`, `Host.dynamicSlice`,
    `Host.reverse`, `transpose`, `concatenate`, `Host.gather` (whatever the indices);
  * contractions — a finite sum of products: `matmul`, `Host.dotGeneral`, `Host.dotGeneralAt`;
  * reductions — a finite sum: `Host.reduceAdd`, `multiReduction .add`; a sum of squares is `≥ 0`;
  * `Host.scatterAdd` — the operand plus a finite sum of updates (whatever the indices).
-/
import Idealize.ShloMosaic.PureOps.Ideal.Laws
import proofs.«100313_j53463752900650_1_alg».proof.Proof.LibFinite

noncomputable section

namespace Cert.LibFinite

open Idealize.ShloMosaic
open scoped BigOperators

/-! ### Elementwise -/

section Elementwise
variable {s : Shape} {φ : FTy}

theorem allReal_constant (s : Shape) {φ : FTy} {b : BitVec φ.bits} (h : IsReal (Ideal.ofBits φ b)) :
    AllReal (constant (F := Ideal) s φ b) := fun _ => h
theorem allPosReal_constant (s : Shape) {φ : FTy} {b : BitVec φ.bits} (h : IsPosReal (Ideal.ofBits φ b)) :
    AllPosReal (constant (F := Ideal) s φ b) := fun _ => h

theorem allReal_addf {x y : FVec Ideal s φ} (hx : AllReal x) (hy : AllReal y) : AllReal (addf x y) :=
  fun i => (hx i).add (hy i)
theorem allReal_subf {x y : FVec Ideal s φ} (hx : AllReal x) (hy : AllReal y) : AllReal (subf x y) :=
  fun i => (hx i).sub (hy i)
theorem allReal_mulf {x y : FVec Ideal s φ} (hx : AllReal x) (hy : AllReal y) : AllReal (mulf x y) :=
  fun i => (hx i).mul (hy i)
theorem allReal_maximumf {x y : FVec Ideal s φ} (hx : AllReal x) (hy : AllReal y) : AllReal (maximumf x y) :=
  fun i => (hx i).max (hy i)
theorem allReal_minimumf {x y : FVec Ideal s φ} (hx : AllReal x) (hy : AllReal y) : AllReal (minimumf x y) :=
  fun i => (hx i).min (hy i)
theorem allReal_negf {x : FVec Ideal s φ} (hx : AllReal x) : AllReal (negf x) := fun i => (hx i).neg

theorem allPosReal_addf {x y : FVec Ideal s φ} (hx : AllPosReal x) (hy : AllPosReal y) : AllPosReal (addf x y) :=
  fun i => (hx i).add (hy i)
theorem allPosReal_mulf {x y : FVec Ideal s φ} (hx : AllPosReal x) (hy : AllPosReal y) : AllPosReal (mulf x y) :=
  fun i => (hx i).mul (hy i)
/-- Nonnegative reals plus positive reals: positive reals (a variance plus an epsilon). -/
theorem allPosReal_addf_of_nonneg {x y : FVec Ideal s φ} (hx : AllReal x) (hx0 : ∀ i, 0 ≤ x i) (hy : AllPosReal y) :
    AllPosReal (addf x y) := fun i => IsPosReal.nonneg_add (hx i) (hx0 i) (hy i)
/-- The maximum of reals and positive reals: positive reals (a degree clamped below by an epsilon). -/
theorem allPosReal_maximumf_right {x y : FVec Ideal s φ} (hx : AllReal x) (hy : AllPosReal y) :
    AllPosReal (maximumf x y) := fun i => IsPosReal.max_right (hx i) (hy i)
theorem allPosReal_maximumf_left {x y : FVec Ideal s φ} (hx : AllPosReal x) (hy : AllReal y) :
    AllPosReal (maximumf x y) := fun i => IsPosReal.max_left (hx i) (hy i)
/-- The square of a real array is nonnegative. -/
theorem mulf_self_nonneg {x : FVec Ideal s φ} (hx : AllReal x) (i : s.Idx) : 0 ≤ mulf x x i := (hx i).mul_self_nonneg

/-- Division by a nonzero real array (a kernel's `arith.divf`). -/
theorem allReal_divf {x y : FVec Ideal s φ} (hx : AllReal x) (hy : AllReal y) (hy0 : ∀ i, y i ≠ 0) :
    AllReal (divf x y) := fun i => (hx i).div (hy i) (hy0 i)
/-- Division by a nonzero real array (the host's `divide`). -/
theorem allReal_hostDivf {x y : FVec Ideal s φ} (hx : AllReal x) (hy : AllReal y) (hy0 : ∀ i, y i ≠ 0) :
    AllReal (Host.divf x y) := fun i => (hx i).div (hy i) (hy0 i)
theorem allReal_hostDivf_of_pos {x y : FVec Ideal s φ} (hx : AllReal x) (hy : AllPosReal y) :
    AllReal (Host.divf x y) := fun i => (hx i).div (hy i).isReal (hy i).ne_zero
theorem allPosReal_hostDivf {x y : FVec Ideal s φ} (hx : AllPosReal x) (hy : AllPosReal y) :
    AllPosReal (Host.divf x y) := fun i => (hx i).div (hy i)

/-- A nonnegative real divided by a positive real is nonnegative. -/
theorem div_nonneg_of_pos {x y : EReal} (hx : IsReal x) (hx0 : 0 ≤ x) (hy : IsPosReal y) : 0 ≤ Ideal.div x y := by
  obtain ⟨a, rfl⟩ := hx; obtain ⟨b, hb, rfl⟩ := hy
  rw [div_coe_coe a hb.ne']
  exact EReal.coe_nonneg.mpr (div_nonneg (EReal.coe_nonneg.mp hx0) hb.le)
theorem hostDivf_nonneg {x y : FVec Ideal s φ} (hx : AllReal x) (hx0 : ∀ i, 0 ≤ x i) (hy : AllPosReal y) (i : s.Idx) :
    0 ≤ Host.divf x y i := div_nonneg_of_pos (hx i) (hx0 i) (hy i)

/-- The reciprocal square root of positive reals (a kernel's `math.rsqrt`): positive reals. -/
theorem allPosReal_rsqrt {x : FVec Ideal s φ} (hx : AllPosReal x) : AllPosReal (rsqrt x) := fun i => (hx i).rsqrt
/-- The reciprocal square root of positive reals (the host's `rsqrt`): positive reals. -/
theorem allPosReal_hostRsqrt {x : FVec Ideal s φ} (hx : AllPosReal x) : AllPosReal (Host.rsqrt x) :=
  fun i => (hx i).rsqrt
theorem allReal_hostRsqrt {x : FVec Ideal s φ} (hx : AllPosReal x) : AllReal (Host.rsqrt x) :=
  (allPosReal_hostRsqrt hx).allReal

/-- An integer converted to a float is real. -/
theorem allReal_sitofp {w : Nat} (φ : FTy) (x : IVec s w) : AllReal (sitofp (F := Ideal) φ x) :=
  fun i => ⟨((x i).toInt : ℝ), rfl⟩
theorem sitofp_apply {w : Nat} (φ : FTy) (x : IVec s w) (i : s.Idx) :
    sitofp (F := Ideal) φ x i = (((x i).toInt : ℝ) : EReal) := rfl

/-- A change of format is the identity at the extended reals. -/
theorem allReal_extf {x : FVec Ideal s φ} (ψ : FTy) (h : φ.bits < ψ.bits) (hx : AllReal x) : AllReal (extf ψ x h) :=
  fun i => hx i
theorem allReal_truncf {x : FVec Ideal s φ} (ψ : FTy) (h : ψ.bits < φ.bits) (hx : AllReal x) : AllReal (truncf ψ x h) :=
  fun i => hx i

/-- A selection between two real arrays is real, whatever the condition. -/
theorem allReal_select {c : IVec s 1} {a b : s.Idx → EReal} (ha : AllReal a) (hb : AllReal b) : AllReal (select c a b) := by
  intro i
  show IsReal (if c i = 1 then a i else b i)
  split
  · exact ha i
  · exact hb i
/-- A selection is real where the chosen branch is. -/
theorem allReal_select_of {c : IVec s 1} {a b : s.Idx → EReal} (ha : ∀ i, c i = 1 → IsReal (a i))
    (hb : ∀ i, c i ≠ 1 → IsReal (b i)) : AllReal (select c a b) := by
  intro i
  show IsReal (if c i = 1 then a i else b i)
  split
  · next h => exact ha i h
  · next h => exact hb i h
/-- Where the condition holds everywhere, the selection is its first branch. -/
theorem select_eq_left {α : Type} {c : IVec s 1} {a b : s.Idx → α} (hc : ∀ i, c i = 1) : select c a b = a := by
  funext i
  show (if c i = 1 then a i else b i) = a i
  rw [if_pos (hc i)]
theorem allPosReal_select {c : IVec s 1} {a b : s.Idx → EReal} (ha : AllPosReal a) (hb : AllPosReal b) :
    AllPosReal (select c a b) := by
  intro i
  show IsPosReal (if c i = 1 then a i else b i)
  split
  · exact ha i
  · exact hb i

end Elementwise

/-! ### Re-indexings: every entry of the result is an entry of the operand -/

section Reindex
variable {s t : Shape}

theorem allReal_broadcast (t : Shape) {x : EReal} (hx : IsReal x) : AllReal (broadcast t x) := fun _ => hx
theorem allReal_broadcastTo (t : Shape) {x : s.Idx → EReal} (h : s.Broadcasts t) (hx : AllReal x) :
    AllReal (broadcastTo t x h) := fun _ => hx _
theorem allReal_broadcastInDim (t : Shape) (dims : Fin s.rank → Fin t.rank) (h : s.BroadcastsInDim t dims)
    {x : s.Idx → EReal} (hx : AllReal x) : AllReal (broadcastInDim t dims h x) := fun _ => hx _
theorem allPosReal_broadcastInDim (t : Shape) (dims : Fin s.rank → Fin t.rank) (h : s.BroadcastsInDim t dims)
    {x : s.Idx → EReal} (hx : AllPosReal x) : AllPosReal (broadcastInDim t dims h x) := fun _ => hx _
theorem allReal_shapeCast (t : Shape) {x : s.Idx → EReal} (h : s.ShapeCasts t) (hx : AllReal x) :
    AllReal (shapeCast t x h) := fun _ => hx _
theorem allPosReal_shapeCast (t : Shape) {x : s.Idx → EReal} (h : s.ShapeCasts t) (hx : AllPosReal x) :
    AllPosReal (shapeCast t x h) := fun _ => hx _
theorem allReal_extractStridedSlice (t : Shape) (off : Fin s.rank → Nat) {x : s.Idx → EReal} (h : s.Slices off t)
    (hx : AllReal x) : AllReal (extractStridedSlice t off x h) := fun _ => hx _
theorem allReal_hostSlice (t : Shape) (start strides : Fin s.rank → Nat) {x : s.Idx → EReal}
    (h : s.SlicesBy start strides t) (hx : AllReal x) : AllReal (Host.slice t start strides x h) := fun _ => hx _
theorem allReal_hostDynamicSlice (t : Shape) {x : s.Idx → EReal} (start : Fin s.rank → Int)
    (h : s.Slices (fun _ => 0) t) (hx : AllReal x) : AllReal (Host.dynamicSlice t x start h) := fun _ => hx _
theorem allReal_hostReverse (axes : List (Fin s.rank)) {x : s.Idx → EReal} (hx : AllReal x) :
    AllReal (Host.reverse axes x) := fun _ => hx _
theorem allReal_transpose (t : Shape) (perm : List (Fin s.rank)) {x : s.Idx → EReal} (h : s.Transposes perm t)
    (hx : AllReal x) : AllReal (transpose t perm x h) := fun _ => hx _

/-- A gather reads the operand at (clamped) indices: every entry of the result is an entry of the operand. -/
theorem allReal_hostGather {si : Shape} {w : Nat} (d : GatherDims s si t) {x : s.Idx → EReal} (idx : IVec si w)
    (hx : AllReal x) : AllReal (Host.gather d x idx) := fun _ => hx _
theorem allPosReal_hostGather {si : Shape} {w : Nat} (d : GatherDims s si t) {x : s.Idx → EReal} (idx : IVec si w)
    (hx : AllPosReal x) : AllPosReal (Host.gather d x idx) := fun _ => hx _

/-- A concatenation of real arrays is real. -/
theorem allReal_concatenate (t : Shape) (a : Fin t.rank) (xs : List ((s : Shape) × (s.Idx → EReal)))
    (h : Shape.Concatenates (xs.map (·.1)) t a) (hxs : ∀ p ∈ xs, AllReal p.2) : AllReal (concatenate t a xs h) :=
  fun _ => hxs _ (List.getElem_mem _) _

end Reindex

/-! ### Contractions: a finite sum of products -/

section Contract
variable {sl sr so : Shape} {φ₁ φ₂ : FTy}

theorem allReal_matmul (d : DotDims sl sr so) (prec : Option ContractPrecision) {lhs : FVec Ideal sl φ₁}
    {rhs : FVec Ideal sr φ₂} {acc : FVec Ideal so .f32} (hl : AllReal lhs) (hr : AllReal rhs) (ha : AllReal acc) :
    AllReal (matmul d prec lhs rhs acc) :=
  fun j => (ha j).add (IsReal.sum _ _ fun k _ => (hl _).mul (hr _))

theorem allReal_hostDotGeneral (d : DotDims sl sr so) (prec : Option ContractPrecision) {lhs : FVec Ideal sl φ₁}
    {rhs : FVec Ideal sr φ₂} (hl : AllReal lhs) (hr : AllReal rhs) : AllReal (Host.dotGeneral d prec lhs rhs) :=
  fun j => isReal_zero.add (IsReal.sum _ _ fun k _ => (hl _).mul (hr _))

theorem allReal_hostDotGeneralAt (sched : HostSchedule) (d : DotDims sl sr so) (prec : Option ContractPrecision)
    {lhs : FVec Ideal sl φ₁} {rhs : FVec Ideal sr φ₂} (hl : AllReal lhs) (hr : AllReal rhs) :
    AllReal (Host.dotGeneralAt sched d prec lhs rhs) :=
  fun j => isReal_zero.add (IsReal.sum _ _ fun k _ => (hl _).mul (hr _))

end Contract

/-! ### Reductions: a finite sum -/

section Reduce
variable {s t u : Shape} {φ : FTy} {axes : List (Fin s.rank)}

/-- The host's float sum: the initial value plus a finite sum of entries. -/
theorem allReal_hostReduceAdd {x : FVec Ideal s φ} {init : u.Idx → Ideal φ} (h : s.ReducesTo axes t) (hu : 0 < u.numel)
    (hx : AllReal x) (hi : AllReal init) : AllReal (Host.reduceAdd x init h hu) :=
  fun _ => (hi _).add (IsReal.sum _ _ fun i _ => hx i)

/-- The host's float sum of nonnegative entries from a nonnegative initial value is nonnegative. -/
theorem hostReduceAdd_nonneg {x : FVec Ideal s φ} {init : u.Idx → Ideal φ} (h : s.ReducesTo axes t) (hu : 0 < u.numel)
    (hx0 : ∀ i, 0 ≤ x i) (hi0 : ∀ i, 0 ≤ init i) (j : t.Idx) : 0 ≤ Host.reduceAdd x init h hu j :=
  add_nonneg (hi0 _) (Finset.sum_nonneg fun i _ => hx0 i)

/-- A kernel's `vector.multi_reduction <add>`: a finite sum of entries. -/
theorem allReal_multiReduction_add {src : FVec Ideal s φ} {acc : BitVec φ.bits} (h : s.Reduces axes t)
    (hφ : FKind.Formats φ) (hacc : acc = FKind.add.neutral φ hφ) (hx : AllReal src) :
    AllReal (multiReduction .add axes t src acc h hφ hacc) := by
  intro j
  show IsReal (∑ i ∈ Finset.univ.filter (fun i => h.drop i = j), src i)
  exact IsReal.sum _ _ fun i _ => hx i

end Reduce

/-! ### Scatter-add: the operand plus a finite sum of updates -/

section Scatter
variable {s si u : Shape} {φ : FTy} {w : Nat}

/-- The host's accumulating scatter: each operand entry plus the sum of the updates landing on it
    (those landing outside the operand are dropped); real if the operand and the updates are, whatever
    the indices. -/
theorem allReal_hostScatterAdd (d : ScatterDims s si u) {x : FVec Ideal s φ} (idx : IVec si w) {upd : FVec Ideal u φ}
    (hx : AllReal x) (hu : AllReal upd) : AllReal (Host.scatterAdd d x idx upd) :=
  fun i => (hx i).add (IsReal.sum _ _ fun j _ => hu j)

theorem allReal_hostScatterAddAt (sched : HostSchedule) (d : ScatterDims s si u) {x : FVec Ideal s φ} (idx : IVec si w)
    {upd : FVec Ideal u φ} (hx : AllReal x) (hu : AllReal upd) : AllReal (Host.scatterAddAt sched d x idx upd) :=
  fun i => (hx i).add (IsReal.sum _ _ fun j _ => hu j)

/-- The accumulating scatter read at an entry. -/
theorem hostScatterAdd_apply (d : ScatterDims s si u) (x : FVec Ideal s φ) (idx : IVec si w) (upd : FVec Ideal u φ)
    (i : s.Idx) :
    Host.scatterAdd d x idx upd i = x i + ∑ j ∈ Finset.univ.filter (fun j => d.resultIdx? j idx = some i), upd j := rfl

/-- Nonnegative operand and updates: nonnegative result (a degree). -/
theorem hostScatterAdd_nonneg (d : ScatterDims s si u) {x : FVec Ideal s φ} (idx : IVec si w) {upd : FVec Ideal u φ}
    (hx0 : ∀ i, 0 ≤ x i) (hu0 : ∀ j, 0 ≤ upd j) (i : s.Idx) : 0 ≤ Host.scatterAdd d x idx upd i :=
  add_nonneg (hx0 i) (Finset.sum_nonneg fun j _ => hu0 j)

end Scatter

end Cert.LibFinite

end
-- ==== Proof.Bridge.lean ====
/-
  The kernel's network is the reference's network, on real inputs with nonnegative running variances.

  The kernel folds each layer's normalisation into a scale `g · r` and a shift `β − m · (g · r)` with
  `r = (v + ε)^(−1/2)`; the reference subtracts the mean, multiplies by `r` and by `g`, and adds `β`.  With
  `v ≥ 0` real and `ε > 0` the sum `v + ε` is a positive real, so `r` is a real number; the aggregation (a
  gather and a scatter by addition) keeps real arrays real; and on real leaves the two spellings agree.
-/
import proofs.«100313_j53463752900650_1_alg».proof.Proof.KernelValue
import proofs.«100313_j53463752900650_1_alg».proof.Proof.LibFiniteOps
import proofs.«100313_j53463752900650_1_alg».proof.Proof.LibFiniteLits
import Idealize.ShloMosaic.Lib.ValueLayout

noncomputable section

namespace Cert.Bridge

open Cert.KernelIdeal Cert.KernelIdeal.Named Cert.KernelIdeal.Facts₀ Cert.KernelIdeal.Facts
open Idealize.ShloMosaic Idealize.ShloMosaic.ValueIdx
open Cert.Sage Cert.Gin Cert.LibFinite

/-- The reciprocal standard deviation of a layer: `(v + ε)^(−1/2)`. -/
def rstd (v : FVec Ideal S256 .f32) : FVec Ideal S256 .f32 :=
  Host.rsqrt (addf v (broadcastInDim S256 ![] bcast_S_S256 (constant (F := Ideal) S_ .f32 0x3727C5AC#32)))

/-- A nonnegative real variance plus the positive `ε` is a positive real, so its reciprocal root is real. -/
theorem allReal_rstd {v : FVec Ideal S256 .f32} (hv : AllReal v) (hv0 : ∀ i, 0 ≤ v i) : AllReal (rstd v) :=
  allReal_hostRsqrt (allPosReal_addf_of_nonneg hv hv0
    (allPosReal_broadcastInDim S256 ![] bcast_S_S256 (allPosReal_constant S_ isPosReal_ofBits_1em5)))

/-- The aggregation keeps real arrays real, whatever the edge indices. -/
theorem allReal_aggK {Y : FVec Ideal S50000x256 .f32} (E : IVec S2x800000 32) (hY : AllReal Y) : AllReal (aggK Y E) :=
  allReal_addf hY (allReal_hostScatterAdd _ _
    (allReal_broadcastInDim S50000x256 ![] bcast_S_S50000x256 (allReal_constant S_ isReal_ofBits_zero))
    (allReal_hostGather _ _ hY))

theorem asRow_apply (x : FVec Ideal S256 .f32) (q : Fin 256) : asRow x (ix2 (0 : Fin 1) q) = x (ix1 q) :=
  shapeCast_a_1a_apply x shapeCasts_S256_S1x256 0 q
theorem asRow2_apply (x : FVec Ideal S2 .f32) (q : Fin 2) : asRow2 x (ix2 (0 : Fin 1) q) = x (ix1 q) :=
  shapeCast_a_1a_apply x shapeCasts_S2_S1x2 0 q

/-- The network as the kernel computes it, as a function of the sixteen argument arrays. -/
def netK (X : FVec Ideal S50000x256 .f32) (E : IVec S2x800000 32) (W1 : FVec Ideal S256x256 .f32)
    (b1 g1 be1 m1 v1 : FVec Ideal S256 .f32) (W2 : FVec Ideal S256x256 .f32) (b2 g2 be2 m2 v2 : FVec Ideal S256 .f32)
    (Wc : FVec Ideal S256x2 .f32) (bc : FVec Ideal S2 .f32) : S50000x2.Idx → EReal :=
  headRow (n := 50000) (k := 256) (c := 2)
    (foldedLayer (n := 50000) (k := 256) (c := 256)
      (aggK (foldedLayer (n := 50000) (k := 256) (c := 256) (aggK X E) W1 (asRow b1) (asRow (scaleOf g1 v1)) (asRow (shiftOf be1 m1 g1 v1))) E)
      W2 (asRow b2) (asRow (scaleOf g2 v2)) (asRow (shiftOf be2 m2 g2 v2)))
    Wc (asRow2 bc)

/-- The network as the reference computes it, over the same aggregation. -/
def netR (X : FVec Ideal S50000x256 .f32) (E : IVec S2x800000 32) (W1 : FVec Ideal S256x256 .f32)
    (b1 g1 be1 m1 v1 : FVec Ideal S256 .f32) (W2 : FVec Ideal S256x256 .f32) (b2 g2 be2 m2 v2 : FVec Ideal S256 .f32)
    (Wc : FVec Ideal S256x2 .f32) (bc : FVec Ideal S2 .f32) : S50000x2.Idx → EReal :=
  head (n := 50000) (k := 256) (c := 2)
    (normLayer (n := 50000) (k := 256) (c := 256)
      (aggK (normLayer (n := 50000) (k := 256) (c := 256) (aggK X E) W1 b1 m1 (rstd v1) g1 be1) E)
      W2 b2 m2 (rstd v2) g2 be2)
    Wc bc

/-- On real inputs with nonnegative variances the two networks are one function. -/
theorem netK_eq_netR (X : FVec Ideal S50000x256 .f32) (E : IVec S2x800000 32) (W1 : FVec Ideal S256x256 .f32)
    (b1 g1 be1 m1 v1 : FVec Ideal S256 .f32) (W2 : FVec Ideal S256x256 .f32) (b2 g2 be2 m2 v2 : FVec Ideal S256 .f32)
    (Wc : FVec Ideal S256x2 .f32) (bc : FVec Ideal S2 .f32)
    (hX : AllReal X) (hW1 : AllReal W1) (hb1 : AllReal b1) (hg1 : AllReal g1) (hbe1 : AllReal be1) (hm1 : AllReal m1)
    (hv1 : AllReal v1) (hW2 : AllReal W2) (hb2 : AllReal b2) (hg2 : AllReal g2) (hbe2 : AllReal be2) (hm2 : AllReal m2)
    (hv2 : AllReal v2) (hv1p : ∀ i, 0 ≤ v1 i) (hv2p : ∀ i, 0 ≤ v2 i) :
    netK X E W1 b1 g1 be1 m1 v1 W2 b2 g2 be2 m2 v2 Wc bc = netR X E W1 b1 g1 be1 m1 v1 W2 b2 g2 be2 m2 v2 Wc bc := by
  unfold netK netR
  exact network_eq (N := 50000) (d := 256) (c := 2) (fun Y => aggK Y E) (fun Y hY => allReal_aggK E hY)
    hX hW1 hW2 hb1 hm1 (allReal_rstd hv1 hv1p) hg1 hbe1 hb2 hm2 (allReal_rstd hv2 hv2p) hg2 hbe2
    (fun q => asRow_apply b1 q) (fun q => asRow_apply (scaleOf g1 v1) q) (fun q => asRow_apply (shiftOf be1 m1 g1 v1) q)
    (fun q => asRow_apply b2 q) (fun q => asRow_apply (scaleOf g2 v2) q) (fun q => asRow_apply (shiftOf be2 m2 g2 v2) q)
    (fun q => asRow2_apply bc q)

end Cert.Bridge

end
-- ==== Proof.RefValue.lean ====
/-
  The reference's value.

  The reference computes, from the node features `X`, the edge list `E` and the parameters of two
  layers and a head,
      head ( layer₂ ( agg ( layer₁ ( agg X ) ) ) ),
  where `agg Y` adds to each row of `Y` the sum of the rows of `Y` at the sources of the edges that
  end at that row (a gather of rows followed by an accumulating scatter), a layer is a dense map
  followed by a normalisation with running statistics and a clip below at zero, and the head is a dense
  map with a bias.  Here each of the three pieces of the reference's term is identified with its
  index-by-index specification: the row broadcasts of the per-feature parameters read the parameter
  at the column, the scalar broadcast of zero reads zero, and the matrix product with no accumulator
  is the row–column sum.
-/
import proofs.«100313_j53463752900650_1_alg».proof.Proof.Gen.ReferenceIdeal.Run
import proofs.«100313_j53463752900650_1_alg».proof.Proof.Gen.ReferenceIdeal.Read
import proofs.«100313_j53463752900650_1_alg».proof.Proof.GinSpec
import proofs.«100313_j53463752900650_1_alg».proof.Proof.LibRowsDot
import proofs.«100313_j53463752900650_1_alg».proof.Proof.LibFiniteOps
import Idealize.ShloMosaic.Lib.KernelVsHost
import Idealize.ShloMosaic.Lib.IdealHost
import Idealize.ShloMosaic.Lib.Pipeline.Value

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx
open scoped BigOperators

/-! ### The aggregation -/

/-- A node's own row plus the sum of the rows at the sources of its incoming edges: the edge sources
    (row 0 of `E`, a negative one wrapped around once) select the rows that are gathered, the edge targets
    (row 1 of `E`) the rows they are accumulated into, starting from zeros. -/
def aggR (Y : FVec Ideal S50000x256 .f32) (E : IVec S2x800000 32) : FVec Ideal S50000x256 .f32 :=
  addf Y (Host.scatterAdd scatter_S50000x256_S800000x1_S800000x256_1_0_0_1 (broadcastInDim S50000x256 ![] bcast_S_S50000x256 (constant S_ .f32 0x00000000#32)) (broadcastInDim S800000x1 ![0] bcast_S800000_S800000x1_0 (shapeCast _ (extractStridedSlice S1x800000 ![1, 0] E slices_S2x800000_S1x800000_1_0) shapeCasts_S1x800000_S800000)) (Host.gather gather_S50000x256_S800000x1_S800000x256_1_0_n_n_0_1_1256 Y (broadcastInDim S800000x1 ![0] bcast_S800000_S800000x1_0 (select (cmpi .slt (shapeCast _ (extractStridedSlice S1x800000 ![0, 0] E slices_S2x800000_S1x800000_0_0) shapeCasts_S1x800000_S800000) (broadcastInDim S800000 ![] bcast_S_S800000 (constantI S_ 32 0#32))) (addi (shapeCast _ (extractStridedSlice S1x800000 ![0, 0] E slices_S2x800000_S1x800000_0_0) shapeCasts_S1x800000_S800000) (broadcastInDim S800000 ![] bcast_S_S800000 (constantI S_ 32 50000#32))) (shapeCast _ (extractStridedSlice S1x800000 ![0, 0] E slices_S2x800000_S1x800000_0_0) shapeCasts_S1x800000_S800000)))))

/-- The aggregation of a real array is real: a gather only re-reads entries, an accumulating scatter
    adds finitely many of them to zero, and the sum of two reals is real. -/
theorem allReal_aggR {Y : FVec Ideal S50000x256 .f32} (E : IVec S2x800000 32) (hY : Cert.LibFinite.AllReal Y) :
    Cert.LibFinite.AllReal (aggR Y E) := by
  unfold aggR
  exact Cert.LibFinite.allReal_addf hY (Cert.LibFinite.allReal_hostScatterAdd _ _
    (Cert.LibFinite.allReal_broadcastInDim _ _ _ (Cert.LibFinite.allReal_constant _ Cert.LibFinite.isReal_ofBits_zero))
    (Cert.LibFinite.allReal_hostGather _ _ hY))

/-! ### Broadcasts read at an entry -/

/-- A vector of 256 entries laid along every row of a [50000, 256] array reads, at (p, q), entry q. -/
theorem row256_apply (z : FVec Ideal S256 .f32) (p : Fin 50000) (q : Fin 256) :
    (broadcastInDim S50000x256 ![0, 1] bcast_S1x256_S50000x256_0_1 (broadcastInDim S1x256 ![1] bcast_S256_S1x256_1 z)) (ix2 p q) = z (ix1 q) := by
  refine (broadcastInDim_oneRow_apply bcast_S1x256_S50000x256_0_1 _ p q).trans ?_
  exact broadcastInDim_apply _ bcast_S256_S1x256_1 z (ix2 (0 : Fin 1) q) (ix1 q) (fun a => match a with
    | ⟨0, _⟩ => by show q.val = if (256 : Nat) = 1 then 0 else q.val; rw [if_neg (by decide)])

/-- A vector of 2 entries laid along every row of a [50000, 2] array reads, at (p, q), entry q. -/
theorem row2_apply (z : FVec Ideal S2 .f32) (p : Fin 50000) (q : Fin 2) :
    (broadcastInDim S50000x2 ![0, 1] bcast_S1x2_S50000x2_0_1 (broadcastInDim S1x2 ![1] bcast_S2_S1x2_1 z)) (ix2 p q) = z (ix1 q) := by
  refine (broadcastInDim_oneRow_apply bcast_S1x2_S50000x2_0_1 _ p q).trans ?_
  exact broadcastInDim_apply _ bcast_S2_S1x2_1 z (ix2 (0 : Fin 1) q) (ix1 q) (fun a => match a with
    | ⟨0, _⟩ => by show q.val = if (2 : Nat) = 1 then 0 else q.val; rw [if_neg (by decide)])

/-! ### The matrix products read at an entry -/

/-- The [50000, 256] × [256, 256] product at (p, q) is the sum over the contraction position of row p
    against column q. -/
theorem dot256_apply (A : FVec Ideal S50000x256 .f32) (W : FVec Ideal S256x256 .f32) (p : Fin 50000) (q : Fin 256) :
    Host.dotGeneral dot_S50000x256_S256x256_S50000x256_1_0_0_1_n_n none A W (ix2 p q)
      = Cert.Sage.rowsMul (n := 50000) (k := 256) (c := 256) A W (ix2 p q) := by
  refine (congrFun (matmul_zero_eq_dotGeneral dot_S50000x256_S256x256_S50000x256_1_0_0_1_n_n none A W).symm (ix2 p q)).trans ?_
  exact Cert.Sage.matmul_zero_rows dot_S50000x256_S256x256_S50000x256_1_0_0_1_n_n rfl rfl
    Cert.ReferenceIdeal.Read.lhs_main_v15_0 Cert.ReferenceIdeal.Read.lhs_main_v15_1
    Cert.ReferenceIdeal.Read.rhs_main_v15_0 Cert.ReferenceIdeal.Read.rhs_main_v15_1 none A W p q

/-- The [50000, 256] × [256, 2] product at (p, q) is the sum over the contraction position of row p
    against column q. -/
theorem dot2_apply (H : FVec Ideal S50000x256 .f32) (W : FVec Ideal S256x2 .f32) (p : Fin 50000) (q : Fin 2) :
    Host.dotGeneral dot_S50000x256_S256x2_S50000x2_1_0_0_1_n_n none H W (ix2 p q)
      = Cert.Sage.rowsMul (n := 50000) (k := 256) (c := 2) H W (ix2 p q) := by
  refine (congrFun (matmul_zero_eq_dotGeneral dot_S50000x256_S256x2_S50000x2_1_0_0_1_n_n none H W).symm (ix2 p q)).trans ?_
  exact Cert.Sage.matmul_zero_rows dot_S50000x256_S256x2_S50000x2_1_0_0_1_n_n rfl rfl
    Cert.ReferenceIdeal.Read.lhs_main_v66_0 Cert.ReferenceIdeal.Read.lhs_main_v66_1
    Cert.ReferenceIdeal.Read.rhs_main_v66_0 Cert.ReferenceIdeal.Read.rhs_main_v66_1 none H W p q

/-! ### A layer and the head -/

/-- The reference's layer is the normalised layer of the specification, with the reciprocal deviation
    `r = (v + ε)^(−1/2)`: entry by entry both are `max(((A·W + b − m) · r) · g + β, 0)`. -/
theorem layer_eq (A : FVec Ideal S50000x256 .f32) (W : FVec Ideal S256x256 .f32) (b m v g be : FVec Ideal S256 .f32) :
    maximumf (addf (mulf (mulf (subf (addf (Host.dotGeneral dot_S50000x256_S256x256_S50000x256_1_0_0_1_n_n none A W) (broadcastInDim S50000x256 ![0, 1] bcast_S1x256_S50000x256_0_1 (broadcastInDim S1x256 ![1] bcast_S256_S1x256_1 b))) (broadcastInDim S50000x256 ![0, 1] bcast_S1x256_S50000x256_0_1 (broadcastInDim S1x256 ![1] bcast_S256_S1x256_1 m))) (broadcastInDim S50000x256 ![0, 1] bcast_S1x256_S50000x256_0_1 (broadcastInDim S1x256 ![1] bcast_S256_S1x256_1 (Host.rsqrt (addf v (broadcastInDim S256 ![] bcast_S_S256 (constant S_ .f32 0x3727C5AC#32))))))) (broadcastInDim S50000x256 ![0, 1] bcast_S1x256_S50000x256_0_1 (broadcastInDim S1x256 ![1] bcast_S256_S1x256_1 g))) (broadcastInDim S50000x256 ![0, 1] bcast_S1x256_S50000x256_0_1 (broadcastInDim S1x256 ![1] bcast_S256_S1x256_1 be))) (broadcastInDim S50000x256 ![] bcast_S_S50000x256 (constant S_ .f32 0x00000000#32))
      = Cert.Gin.normLayer A W b m (Host.rsqrt (addf v (broadcastInDim S256 ![] bcast_S_S256 (constant S_ .f32 0x3727C5AC#32)))) g be := by
  funext j
  obtain ⟨p, q, rfl⟩ : ∃ (p : Fin 50000) (q : Fin 256), j = ix2 p q := ⟨j 0, j 1, eq_ix2 j⟩
  unfold Cert.Gin.normLayer
  simp only [maximumf_apply, addf_apply, mulf_apply, subf_apply]
  rw [row256_apply, row256_apply, row256_apply, row256_apply, row256_apply, dot256_apply]
  rfl

/-- The reference's head is the head of the specification: entry by entry `H·W + b`. -/
theorem head_eq (H : FVec Ideal S50000x256 .f32) (W : FVec Ideal S256x2 .f32) (b : FVec Ideal S2 .f32) :
    addf (Host.dotGeneral dot_S50000x256_S256x2_S50000x2_1_0_0_1_n_n none H W) (broadcastInDim S50000x2 ![0, 1] bcast_S1x2_S50000x2_0_1 (broadcastInDim S1x2 ![1] bcast_S2_S1x2_1 b))
      = Cert.Sage.head H W b := by
  funext j
  obtain ⟨p, q, rfl⟩ : ∃ (p : Fin 50000) (q : Fin 2), j = ix2 p q := ⟨j 0, j 1, eq_ix2 j⟩
  unfold Cert.Sage.head
  simp only [addf_apply]
  rw [row2_apply, dot2_apply]

/-! ### The whole term -/

/-- The reference's result is the head of the second layer of the aggregation of the first layer of
    the aggregation of the node features. -/
theorem res_eq (m : (ℓ : Loc nD τ sig) → Buf (Elt Ideal) ℓ) (c : Dev nD) :
    Cert.ReferenceIdeal.Value.res_main_v69 (F := Ideal) m c
      = Cert.Sage.head (Cert.Gin.normLayer (aggR (Cert.Gin.normLayer (aggR (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg6)) (Host.rsqrt (F := Ideal) (addf (m ((c.tc : Thread nD τ).loc main_arg7)) (broadcastInDim S256 ![] bcast_S_S256 (constant S_ .f32 0x3727C5AC#32)))) (m ((c.tc : Thread nD τ).loc main_arg4)) (m ((c.tc : Thread nD τ).loc main_arg5))) (m ((c.tc : Thread nD τ).loc main_arg1))) (m ((c.tc : Thread nD τ).loc main_arg8)) (m ((c.tc : Thread nD τ).loc main_arg9)) (m ((c.tc : Thread nD τ).loc main_arg12)) (Host.rsqrt (F := Ideal) (addf (m ((c.tc : Thread nD τ).loc main_arg13)) (broadcastInDim S256 ![] bcast_S_S256 (constant S_ .f32 0x3727C5AC#32)))) (m ((c.tc : Thread nD τ).loc main_arg10)) (m ((c.tc : Thread nD τ).loc main_arg11))) (m ((c.tc : Thread nD τ).loc main_arg14)) (m ((c.tc : Thread nD τ).loc main_arg15)) := by
  unfold Cert.ReferenceIdeal.Value.res_main_v69
  rw [← head_eq, ← layer_eq, ← layer_eq]
  rfl

end Cert.ReferenceIdeal.RefValue

end
-- ==== Proof.PreDecode.lean ====
/-
  The precondition, read back.

  The precondition of this claim is the conjunction of seventeen facts about the sixteen argument
  arrays: for each of the fifteen float arrays `a`, every entry has `|a i| < +∞`; and every entry of
  two of them (`a7`, `a13`) is `≥ 0`.  At the ideal values (extended reals, `|x| = max x (-x)`)
  the first kind of fact says that every entry is a real number (neither infinity), the second that
  every entry is nonnegative.  One lemma per kind of conjunct, over an arbitrary shape; then the
  conjunction is split and each conjunct read by its lemma.
-/
import proofs.«100313_j53463752900650_1_alg».proof.Pre_finite_inputs
import Idealize.ShloMosaic.PureOps.Ideal.Laws
import Idealize.ShloMosaic.Lib.ReduceAll
import proofs.«100313_j53463752900650_1_alg».proof.Proof.LibFinite

noncomputable section

namespace Cert.PreDecode

open Idealize.ShloMosaic
open Cert.Pre_finite_inputs Cert.LibFinite

/-- The rank-zero shape has exactly one index. -/
instance : Subsingleton S_.Idx := ⟨fun a b => funext fun d => d.elim0⟩

/-! ### The element facts -/

/-- The f32 pattern `0x7F800000` is `+∞`. -/
theorem ofBits_inf_f32 : Ideal.ofBits .f32 0x7F800000#32 = (⊤ : EReal) := by
  simp [Ideal.ofBits, Ideal.ieee]

/-- `|x| < +∞` on the extended reals says that `x` is a real number: at `x = ⊤` the maximum
    `max x (-x)` is `⊤`, at `x = ⊥` it is `-⊥ = ⊤`, and `⊤ < ⊤` is false. -/
theorem isReal_of_abs_lt_inf (x : EReal)
    (h : Ideal.cmp .olt (max x (-x)) (Ideal.ofBits .f32 0x7F800000#32) = 1#1) : IsReal x := by
  rw [ofBits_inf_f32] at h
  induction x using EReal.rec with
  | bot => simp [Ideal.cmp] at h
  | coe r => exact isReal_coe r
  | top => simp [Ideal.cmp] at h

/-- `x ≥ 0.0` on the extended reals is `0 ≤ x`. -/
theorem nonneg_of_ge_zero (x : EReal)
    (h : Ideal.cmp .oge x (Ideal.ofBits .f32 0x00000000#32) = 1#1) : 0 ≤ x := by
  rw [Ideal.ofBits_zero_f32] at h
  by_contra hx
  simp [Ideal.cmp, hx] at h

/-! ### One lemma per kind of conjunct -/

/-- The conjunction over all entries of `|x i| < +∞` came out true: every entry of `x` is real. -/
theorem allReal_of_all_abs_lt_inf {s : Shape} {axes : List (Fin s.rank)} (x : FVec Ideal s .f32)
    (hb : S_.BroadcastsInDim s (![] : Fin 0 → Fin s.rank)) (hr : s.ReducesTo axes S_) (hS : 0 < S_.numel)
    (j : S_.Idx)
    (h : Host.reduce IntOp.andi
          (cmpf .olt (Host.absf x) (broadcastInDim s ![] hb (constant S_ .f32 0x7F800000#32)))
          (constantI S_ 1 1#1) hr hS j = 1#1) :
    AllReal x := by
  intro i
  exact isReal_of_abs_lt_inf (x i) (Host.reduce_andi_all _ _ hr hS j h i)

/-- The conjunction over all entries of `x i ≥ 0.0` came out true: every entry of `x` is nonnegative. -/
theorem nonneg_of_all_ge_zero {s : Shape} {axes : List (Fin s.rank)} (x : FVec Ideal s .f32)
    (hb : S_.BroadcastsInDim s (![] : Fin 0 → Fin s.rank)) (hr : s.ReducesTo axes S_) (hS : 0 < S_.numel)
    (j : S_.Idx)
    (h : Host.reduce IntOp.andi
          (cmpf .oge x (broadcastInDim s ![] hb (constant S_ .f32 0x00000000#32)))
          (constantI S_ 1 1#1) hr hS j = 1#1) :
    ∀ i, 0 ≤ x i := by
  intro i
  exact nonneg_of_ge_zero (x i) (Host.reduce_andi_all _ _ hr hS j h i)

/-! ### The precondition decoded -/

variable [hPre_finite_inputs : Cert.Pre_finite_inputs.Facts]

/-- The precondition holds of the sixteen arrays: the fifteen float arrays have only real entries, and
    `a7` and `a13` only nonnegative ones. -/
theorem decode (a0 : FVec Ideal S50000x256 .f32) (a1 : IVec S2x800000 32) (a2 : FVec Ideal S256x256 .f32)
    (a3 a4 a5 a6 a7 : FVec Ideal S256 .f32) (a8 : FVec Ideal S256x256 .f32)
    (a9 a10 a11 a12 a13 : FVec Ideal S256 .f32) (a14 : FVec Ideal S256x2 .f32) (a15 : FVec Ideal S2 .f32)
    (h : Cert.Pre_finite_inputs.fn (F := Ideal) a0 a1 a2 a3 a4 a5 a6 a7 a8 a9 a10 a11 a12 a13 a14 a15
          = (fun _ => 1#1)) :
    AllReal a0 ∧ AllReal a2 ∧ AllReal a3 ∧ AllReal a4 ∧ AllReal a5 ∧ AllReal a6 ∧ AllReal a7 ∧ AllReal a8
      ∧ AllReal a9 ∧ AllReal a10 ∧ AllReal a11 ∧ AllReal a12 ∧ AllReal a13 ∧ AllReal a14 ∧ AllReal a15
      ∧ (∀ i, 0 ≤ a7 i) ∧ (∀ i, 0 ≤ a13 i) := by
  have h0 := congrFun h (fun a => a.elim0)
  dsimp only [fn, fn_part1, fn_part2, fn_part3, fn_part4, andi] at h0
  simp only [IntOp.andi_eq_one] at h0
  obtain ⟨⟨⟨⟨⟨⟨⟨⟨⟨⟨⟨⟨⟨⟨⟨⟨h0, h2⟩, h3⟩, h4⟩, h5⟩, h6⟩, h7⟩, h8⟩, h9⟩, h10⟩, h11⟩, h12⟩, h13⟩, h14⟩, h15⟩, g7⟩, g13⟩ := h0
  exact ⟨allReal_of_all_abs_lt_inf a0 _ _ _ _ h0, allReal_of_all_abs_lt_inf a2 _ _ _ _ h2,
    allReal_of_all_abs_lt_inf a3 _ _ _ _ h3, allReal_of_all_abs_lt_inf a4 _ _ _ _ h4,
    allReal_of_all_abs_lt_inf a5 _ _ _ _ h5, allReal_of_all_abs_lt_inf a6 _ _ _ _ h6,
    allReal_of_all_abs_lt_inf a7 _ _ _ _ h7, allReal_of_all_abs_lt_inf a8 _ _ _ _ h8,
    allReal_of_all_abs_lt_inf a9 _ _ _ _ h9, allReal_of_all_abs_lt_inf a10 _ _ _ _ h10,
    allReal_of_all_abs_lt_inf a11 _ _ _ _ h11, allReal_of_all_abs_lt_inf a12 _ _ _ _ h12,
    allReal_of_all_abs_lt_inf a13 _ _ _ _ h13, allReal_of_all_abs_lt_inf a14 _ _ _ _ h14,
    allReal_of_all_abs_lt_inf a15 _ _ _ _ h15, nonneg_of_all_ge_zero a7 _ _ _ _ g7,
    nonneg_of_all_ge_zero a13 _ _ _ _ g13⟩

end Cert.PreDecode

end
-- ==== Proof.lean ====
/-
  A two-layer graph isomorphism network in evaluation mode — per layer: aggregate each node's row with the rows of
  its in-neighbours, a dense map, a batch normalisation with running statistics, a clip at zero; then a linear
  head — computed by a Pallas kernel per layer (the second fused with the head) against the plain reference.

  The kernel folds each normalisation into a scale `g · r` and a shift `β − m · (g · r)`, `r = (v + ε)^(−1/2)`,
  where the reference subtracts the mean and multiplies by `r` and `g`.  On the extended reals the two agree
  when every leaf is a real number: the inputs are finite by the precondition, and `r` is real because the
  running variance is nonnegative (the precondition's last two conjuncts) and `ε > 0`.  At `v + ε ≤ 0` the
  reference itself is infinite or undefined and the two spellings differ.

  The three frames are the generated ones (the reference's is its generated run with the result dropped); the
  idealization rewrote nothing, so `preserves` is trivial; `algebraic` joins the kernel's run read at its result
  array (Proof/KernelRun, KernelBlocks, KernelArrays, KernelValue) with the reference's generated run read as the
  same network (Proof/RefValue) through the law of Proof/GinSpec and Proof/Bridge, under the decoded
  precondition (Proof/PreDecode).
-/
import proofs.«100313_j53463752900650_1_alg».proof.Defs
import proofs.«100313_j53463752900650_1_alg».proof.Proof.Gen.Kernel
import proofs.«100313_j53463752900650_1_alg».proof.Proof.Gen.Kernel.Skeleton
import proofs.«100313_j53463752900650_1_alg».proof.Proof.Gen.Kernel.Launch
import proofs.«100313_j53463752900650_1_alg».proof.Proof.Gen.Kernel.Points
import proofs.«100313_j53463752900650_1_alg».proof.Proof.Gen.Kernel.Frame
import proofs.«100313_j53463752900650_1_alg».proof.Proof.Gen.KernelIdeal
import proofs.«100313_j53463752900650_1_alg».proof.Proof.Gen.KernelIdeal.Skeleton
import proofs.«100313_j53463752900650_1_alg».proof.Proof.Gen.KernelIdeal.Launch
import proofs.«100313_j53463752900650_1_alg».proof.Proof.Gen.KernelIdeal.Points
import proofs.«100313_j53463752900650_1_alg».proof.Proof.Gen.KernelIdeal.Frame
import proofs.«100313_j53463752900650_1_alg».proof.Proof.Gen.ReferenceIdeal
import proofs.«100313_j53463752900650_1_alg».proof.Proof.Gen.ReferenceIdeal.Run
import proofs.«100313_j53463752900650_1_alg».proof.Proof.Gen.Pre_finite_inputs
import proofs.«100313_j53463752900650_1_alg».proof.Proof.KernelValue
import proofs.«100313_j53463752900650_1_alg».proof.Proof.Bridge
import proofs.«100313_j53463752900650_1_alg».proof.Proof.RefValue
import proofs.«100313_j53463752900650_1_alg».proof.Proof.PreDecode
import Idealize.ShloMosaic.Adequacy
import Idealize.ShloMosaic.Init

set_option maxRecDepth 16384

noncomputable section

namespace Cert.Proof

open Idealize.ShloMosaic Idealize.ShloMosaic.TcCoe Idealize.SL.Sem
open Cert.Sage Cert.Gin Cert.LibFinite

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs spell the aggregation with the same host operations. -/
theorem aggK_eq_aggR (Y : FVec Ideal Cert.KernelIdeal.S50000x256 .f32) (E : IVec Cert.KernelIdeal.S2x800000 32) :
    Cert.KernelIdeal.Named.aggK Y E = Cert.ReferenceIdeal.RefValue.aggR Y E := rfl

/-- The kernel's result is its network of the sixteen argument arrays. -/
theorem resK_eq (m : (ℓ : Loc Cert.KernelIdeal.nD Cert.KernelIdeal.τ Cert.KernelIdeal.sig) → Buf (Elt Ideal) ℓ) (c : Dev Cert.KernelIdeal.nD) :
    Cert.KernelIdeal.Named.resK m c = Cert.Bridge.netK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) := rfl

/-- Under the precondition the kernel's result, as a function of the arguments, is the reference's. -/
theorem algebraic : Cert.algebraic_KernelIdeal_ReferenceIdeal := by
  intro m ρ m' ρ' hpre hagree
  refine ⟨fun c => Cert.KernelIdeal.Named.resK m c, Cert.KernelIdeal.Named.run_value m ρ, ?_⟩
  refine (θ_run Cert.ReferenceIdeal.defs _ _).mono (fun r h c => ⟨(h c).1.trans ?_, (h c).2⟩)
    (Cert.ReferenceIdeal.Value.run (F := Ideal) m' ρ')
  obtain ⟨h0, h2, h3, h4, h5, h6, h7, h8, h9, h10, h11, h12, h13, h14, h15, p7, p13⟩ :=
    Cert.PreDecode.decode _ _ _ _ _ _ _ _ _ _ _ _ _ _ _ _ (hpre c)
  obtain ⟨a0, a1, a2, a3, a4, a5, a6, a7, a8, a9, a10, a11, a12, a13, a14, a15⟩ := hagree c
  rw [Cert.ReferenceIdeal.RefValue.res_eq, a0, a1, a2, a3, a4, a5, a6, a7, a8, a9, a10, a11, a12, a13, a14, a15]
  refine Eq.trans ?_ ((Cert.Bridge.netK_eq_netR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))
    h0 h2 h3 h4 h5 h6 h7 h8 h9 h10 h11 h12 h13 p7 p13).symm.trans (resK_eq m c).symm)
  unfold Cert.Bridge.netR Cert.Bridge.rstd
  simp only [aggK_eq_aggR]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
